-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x1 .f32) (main_arg9 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S512x256 .f32) (main_arg3 : FVec F S256 .f32) (main_arg4 : FVec F S256x256 .f32) (main_arg5 : FVec F S256 .f32) (main_arg6 : FVec F S256x256 .f32) (main_arg7 : FVec F S256 .f32) (main_arg8 : FVec F S256x1 .f32) (main_arg9 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S850000x256 : Shape := ⟨2, ![850000, 256]⟩
abbrev S1x256 : Shape := ⟨2, ![1, 256]⟩
abbrev S1x1 : Shape := ⟨2, ![1, 1]⟩

abbrev nBuf : Space → Nat
  | .hbm => 76
  | .vmem => 32
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x256, .f32⟩
  | .hbm, ⟨42, _⟩ => ⟨S_, .f32⟩
  | .hbm, ⟨43, _⟩ => ⟨S50000x256, .f32⟩
  | .hbm, ⟨44, _⟩ => ⟨S850000x1, .i32⟩
  | .hbm, ⟨45, _⟩ => ⟨S50000x256, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S_, .f32⟩
  | .hbm, ⟨57, _⟩ => ⟨S50000x256, .f32⟩
  | .hbm, ⟨58, _⟩ => ⟨S850000x1, .i32⟩
  | .hbm, ⟨59, _⟩ => ⟨S50000x256, .f32⟩
  | .hbm, ⟨60, _⟩ => ⟨S50000x256, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x256, .f32⟩
  | .hbm, ⟨70, _⟩ => ⟨S_, .f32⟩
  | .hbm, ⟨71, _⟩ => ⟨S50000x256, .f32⟩
  | .hbm, ⟨72, _⟩ => ⟨S850000x1, .i32⟩
  | .hbm, ⟨73, _⟩ => ⟨S50000x256, .f32⟩
  | .hbm, ⟨74, _⟩ => ⟨S50000x1, .f32⟩
  | .hbm, ⟨75, _⟩ => ⟨S50000, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x1, .f32⟩
  | .local _ .vmem, ⟨18, _⟩ => ⟨S2000x1, .f32⟩
  | .local _ .vmem, ⟨19, _⟩ => ⟨S256, .f32⟩
  | .local _ .vmem, ⟨20, _⟩ => ⟨S256x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x1, .f32⟩
  | .local _ .vmem, ⟨26, _⟩ => ⟨S2000x1, .f32⟩
  | .local _ .vmem, ⟨27, _⟩ => ⟨S256, .f32⟩
  | .local _ .vmem, ⟨28, _⟩ => ⟨S256x1, .f32⟩
  | .local _ .vmem, ⟨29, _⟩ => ⟨S1, .f32⟩
  | .local _ .vmem, ⟨30, _⟩ => ⟨S2000x1, .f32⟩
  | .local _ .vmem, ⟨31, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  shapeCasts_S50000x1_S50000 : S50000x1.ShapeCasts S50000
  scatter_S50000_S850000x1_S850000_n_0_0_1_wf : ScatterDims.WF S50000 S850000x1 S850000 [] [0] [0] 1
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S256x1.size a
  hwx3_3 : ∀ i : grid3.Coords, EltTy.bits .f32 = 32 ∨ (Rect.block (s := S256x1) S256x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1.size a ≤ S1.size a
  hwx3_4 : ∀ i : grid3.Coords, EltTy.bits .f32 = 32 ∨ (Rect.block (s := S1) S1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S50000x1.size a
  hwx3_5 : ∀ i : grid3.Coords, EltTy.bits .f32 = 32 ∨ (Rect.block (s := S50000x1) S2000x1.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S256x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S2000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x256, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .f32⟩
  | .hbm, ⟨60, _⟩ => ⟨S850000x1, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x256, .f32⟩
  | .hbm, ⟨83, _⟩ => ⟨S850000x1, .f32⟩
  | .hbm, ⟨84, _⟩ => ⟨S850000x256, .f32⟩
  | .hbm, ⟨85, _⟩ => ⟨S850000x256, .f32⟩
  | .hbm, ⟨86, _⟩ => ⟨S_, .f32⟩
  | .hbm, ⟨87, _⟩ => ⟨S50000x256, .f32⟩
  | .hbm, ⟨88, _⟩ => ⟨S850000x1, .i32⟩
  | .hbm, ⟨89, _⟩ => ⟨S50000x256, .f32⟩
  | .hbm, ⟨90, _⟩ => ⟨S1x256, .f32⟩
  | .hbm, ⟨91, _⟩ => ⟨S50000x256, .f32⟩
  | .hbm, ⟨92, _⟩ => ⟨S50000x256, .f32⟩
  | .hbm, ⟨93, _⟩ => ⟨S_, .f32⟩
  | .hbm, ⟨94, _⟩ => ⟨S50000x256, .f32⟩
  | .hbm, ⟨95, _⟩ => ⟨S50000x256, .f32⟩
  | .hbm, ⟨96, _⟩ => ⟨S50000x256, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x256, .f32⟩
  | .hbm, ⟨106, _⟩ => ⟨S850000x1, .f32⟩
  | .hbm, ⟨107, _⟩ => ⟨S850000x256, .f32⟩
  | .hbm, ⟨108, _⟩ => ⟨S850000x256, .f32⟩
  | .hbm, ⟨109, _⟩ => ⟨S_, .f32⟩
  | .hbm, ⟨110, _⟩ => ⟨S50000x256, .f32⟩
  | .hbm, ⟨111, _⟩ => ⟨S850000x1, .i32⟩
  | .hbm, ⟨112, _⟩ => ⟨S50000x256, .f32⟩
  | .hbm, ⟨113, _⟩ => ⟨S1x256, .f32⟩
  | .hbm, ⟨114, _⟩ => ⟨S50000x256, .f32⟩
  | .hbm, ⟨115, _⟩ => ⟨S50000x256, .f32⟩
  | .hbm, ⟨116, _⟩ => ⟨S_, .f32⟩
  | .hbm, ⟨117, _⟩ => ⟨S50000x256, .f32⟩
  | .hbm, ⟨118, _⟩ => ⟨S50000x256, .f32⟩
  | .hbm, ⟨119, _⟩ => ⟨S50000x1, .f32⟩
  | .hbm, ⟨120, _⟩ => ⟨S1x1, .f32⟩
  | .hbm, ⟨121, _⟩ => ⟨S50000x1, .f32⟩
  | .hbm, ⟨122, _⟩ => ⟨S50000x1, .f32⟩
  | .hbm, ⟨123, _⟩ => ⟨S50000, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KRun.lean ====
/-
  The kernel program's run with its result named: every weakly fair execution of @main terminates, nothing faulting,
  with the result buffer at the last boundary's contents (`W11`, the fold of the host stretches and the four regions'
  write-backs from the launch memory) and the ten argument arrays as launched.
-/
import proofs.«141591_j20212116095606_2_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the eleven segments, the last thread state read against the final state: the result buffer holds the last
    boundary's contents, each argument its launch contents. -/
theorem run_named : θ_run defs (onTc (τ := τ) (main (F := F))) ⟨m, fun _ => 0, ρ⟩ (fun r => ∀ c : Dev nD,
      r.2.mem ((c.tc : Thread nD τ).loc main_v50) = W11 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v50 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.Gcn.KRun

end
-- ==== Proof.KStages.lean ====
/-
  The pieces of a graph convolution stack whose node tables are kept SCALED by the factor of their row.

  Over N = 50000 nodes and E = 850000 edges, with `d p` the factor of node `p` (read from a column `dc`):
    • `stage0`  : row `p` of `X · W`, times `d p`;
    • `aggK`    : row `p` of the sum, over the edges with target `p`, of the table's row at the edge's source;
    • `stageL`  : row `p` of `max (A · d p + b, 0) · W`, times `d p`;
    • `stageOut`: `max (A · d p + b, 0) · w + c`, one number per node.
-/
import proofs.«141591_j20212116095606_2_alg».proof.Proof.Gen.KernelIdeal
import Idealize.ShloMosaic.Lib.ValueIdx
import Idealize.ShloMosaic.PureOps.Ideal

noncomputable section

namespace Cert.Gcn

open Idealize.ShloMosaic Idealize.ShloMosaic.ValueIdx Cert.KernelIdeal Cert.KernelIdeal.Gen

/-- The row and the column of an index of a two-axis array, as numbers below the literal extents. -/
abbrev row {a b : ℕ} (i : (⟨2, ![a, b]⟩ : Shape).Idx) : Fin a := ⟨(i 0).val, idx2_lt0 i⟩
abbrev col {a b : ℕ} (i : (⟨2, ![a, b]⟩ : Shape).Idx) : Fin b := ⟨(i 1).val, idx2_lt1 i⟩

/-- The value `0.0` the negative part is cut at. -/
abbrev zeroF : EReal := Ideal.ofBits .f32 0x00000000#32

/-- The neighbourhood sum: the rows of `H` gathered at the edges' sources (a negative index wraps once, then is clamped
    into the table) and added into the rows named by the edges' targets (an edge whose target is outside the table is
    dropped), from the zero table. -/
def aggK (S D : IVec S850000 32) (H : FVec Ideal S50000x256 .f32) : FVec Ideal S50000x256 .f32 :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 D)
    (Host.gather gather_S50000x256_S850000x1_S850000x256_1_0_n_n_0_1_1256 H
      (broadcastInDim S850000x1 ![0] bcast_S850000_S850000x1_0
        (select (cmpi .slt S (broadcastInDim S850000 ![] bcast_S_S850000 (constantI S_ 32 0#32)))
          (addi S (broadcastInDim S850000 ![] bcast_S_S850000 (constantI S_ 32 50000#32))) S)))

/-- Layer 0: `(X · W) p q · d p`. -/
def stage0 (X : FVec Ideal S50000x512 .f32) (W : FVec Ideal S512x256 .f32) (dc : FVec Ideal S50000x1 .f32) :
    FVec Ideal S50000x256 .f32 :=
  fun i => (∑ k : Fin 512, X (ix2 (row i) k) * W (ix2 k (col i))) * dc (ix2 (row i) (0 : Fin 1))

/-- A middle layer: `(max (A · d p + b, 0) · W) p q · d p`. -/
def stageL (A : FVec Ideal S50000x256 .f32) (dc : FVec Ideal S50000x1 .f32) (b : FVec Ideal S256 .f32)
    (W : FVec Ideal S256x256 .f32) : FVec Ideal S50000x256 .f32 :=
  fun i => (∑ k : Fin 256, max (A (ix2 (row i) k) * dc (ix2 (row i) (0 : Fin 1)) + b (ix1 k)) zeroF * W (ix2 k (col i)))
    * dc (ix2 (row i) (0 : Fin 1))

/-- The readout: `(max (A · d p + b, 0) · w) p + c`. -/
def stageOut (A : FVec Ideal S50000x256 .f32) (dc : FVec Ideal S50000x1 .f32) (b : FVec Ideal S256 .f32)
    (Wo : FVec Ideal S256x1 .f32) (bo : FVec Ideal S1 .f32) : FVec Ideal S50000x1 .f32 :=
  fun i => (∑ k : Fin 256, max (A (ix2 (row i) k) * dc (ix2 (row i) (0 : Fin 1)) + b (ix1 k)) zeroF * Wo (ix2 k (0 : Fin 1)))
    + bo (ix1 (0 : Fin 1))

end Cert.Gcn

end
-- ==== Proof.KSpec.lean ====
/-
  The kernel's result as one function of the ten argument arrays: three scaled layers and a readout (KStages), with the
  edges' source and target vectors and the node factor named by the reference's own stages of the edge array
  (`val_main_v3`, `val_main_v6`, `val_main_v14`) — both programs compute them by the same operations.
-/
import proofs.«141591_j20212116095606_2_alg».proof.Proof.KStages
import proofs.«141591_j20212116095606_2_alg».proof.Proof.RefRead

noncomputable section

namespace Cert.Gcn

open Idealize.ShloMosaic Idealize.ShloMosaic.ValueIdx Cert.KernelIdeal Cert.KernelIdeal.Gen

/-- The node factor as a column, as the kernel's windows read it. -/
def factorCol (x1 : IVec S2x800000 32) : FVec Ideal S50000x1 .f32 :=
  broadcastInDim S50000x1 ![0] bcast_S50000_S50000x1_0 (Cert.ReferenceIdeal.Read.val_main_v14 (F := Ideal) x1)

/-- THE KERNEL'S RESULT, from the ten argument arrays. -/
def kernelResult (x0 : FVec Ideal S50000x512 .f32) (x1 : IVec S2x800000 32) (x2 : FVec Ideal S512x256 .f32)
    (x3 : FVec Ideal S256 .f32) (x4 : FVec Ideal S256x256 .f32) (x5 : FVec Ideal S256 .f32) (x6 : FVec Ideal S256x256 .f32)
    (x7 : FVec Ideal S256 .f32) (x8 : FVec Ideal S256x1 .f32) (x9 : FVec Ideal S1 .f32) : FVec Ideal S50000 .f32 :=
  shapeCast S50000
    (stageOut
      (aggK (Cert.ReferenceIdeal.Read.val_main_v3 (F := Ideal) x1) (Cert.ReferenceIdeal.Read.val_main_v6 (F := Ideal) x1)
        (stageL
          (aggK (Cert.ReferenceIdeal.Read.val_main_v3 (F := Ideal) x1) (Cert.ReferenceIdeal.Read.val_main_v6 (F := Ideal) x1)
            (stageL
              (aggK (Cert.ReferenceIdeal.Read.val_main_v3 (F := Ideal) x1) (Cert.ReferenceIdeal.Read.val_main_v6 (F := Ideal) x1)
                (stage0 x0 x2 (factorCol x1)))
              (factorCol x1) x3 x4))
          (factorCol x1) x5 x6))
      (factorCol x1) x7 x8 x9)
    shapeCasts_S50000x1_S50000

end Cert.Gcn

end
-- ==== Proof.LibColumnBroadcast.lean ====
/-
  A column broadcast along the rows' second axis, read at an index: a general layout fact, independent of any program.
-/
import Idealize.ShloMosaic.Lib.Pipeline.Value
import Idealize.ShloMosaic.Lib.ValueIdx

namespace Idealize.ShloMosaic.ValueIdx

open Idealize.ShloMosaic

variable {α : Type}

/-- An `[a, 1]` array (one column) broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of an `[a, 1]` array (one column) to `[a, b]` along both axes reads, at `(p, c)`, the column's
    entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of a `[1, b]` array (one row) to `[a, b]` along both axes reads, at `(p, c)`, the row's entry
    of column `c`. -/
theorem broadcastInDim_1b_ab_apply {a b : ℕ} (v : (⟨2, ![1, b]⟩ : Shape).Idx → α)
    (h : (⟨2, ![1, b]⟩ : Shape).BroadcastsInDim ⟨2, ![a, b]⟩ ![0, 1])
    (p : Fin a) (c : Fin b) : broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A `broadcast_in_dim` of an `[a]` vector to `[a, 1]` (its entries down one column) reads, at `(p, u)`, entry `p`. -/
theorem broadcastInDim_a_a1_apply {a : ℕ} (v : (⟨1, ![a]⟩ : Shape).Idx → α)
    (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A `broadcast_in_dim` of a `[b]` vector to `[1, b]` (its entries along one row) reads, at `(u, c)`, entry `c`. -/
theorem broadcastInDim_b_1b_apply {b : ℕ} (v : (⟨1, ![b]⟩ : Shape).Idx → α)
    (h : (⟨1, ![b]⟩ : Shape).BroadcastsInDim ⟨2, ![1, b]⟩ ![1])
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Idealize.ShloMosaic.ValueIdx
-- ==== Proof.Region0.lean ====
/-
  Region 0 of the kernel (the first layer), read as values.

  The body at point `t` loads rows `2000 t … 2000 t + 1999` of the features `X` and of the factor column, and the whole
  weight, and stores `(X · W) · d` for its rows. The 25 blocks tile the 50000 rows, so the table ends at `stage0` of the
  region's entry arrays.
-/
import proofs.«141591_j20212116095606_2_alg».proof.Proof.Gen.KernelIdeal.Frame
import proofs.«141591_j20212116095606_2_alg».proof.Proof.KStages
import proofs.«141591_j20212116095606_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region0

open Idealize.ShloMosaic Idealize.ShloMosaic.TcCoe Idealize.ShloMosaic.ValueIdx Idealize.SL.Sem
open Cert.KernelIdeal Cert.KernelIdeal.Gen
open Idealize.ShloMosaic.Pipeline (Dat)

/-! ## The block product at an entry -/

theorem lhs0 (i : S2000x256.Idx) (q : dot_S2000x512_S512x256_S2000x256_1_0_0_1_n_n.contr.Idx) : (dot_S2000x512_S512x256_S2000x256_1_0_0_1_n_n.lhsIdx i q 0).val = (i 0).val := by
  unfold DotDims.lhsIdx
  rw [dif_neg (show ¬(0 : Fin S2000x256.rank) ∈ dot_S2000x512_S512x256_S2000x256_1_0_0_1_n_n.lhsBatch by decide), dif_pos (show (0 : Fin S2000x256.rank) ∈ dot_S2000x512_S512x256_S2000x256_1_0_0_1_n_n.lhsNonContracting by decide)]
  rfl
theorem lhs1 (i : S2000x256.Idx) (q : dot_S2000x512_S512x256_S2000x256_1_0_0_1_n_n.contr.Idx) : (dot_S2000x512_S512x256_S2000x256_1_0_0_1_n_n.lhsIdx i q 1).val = (q ⟨0, by decide⟩).val :=
  dot_S2000x512_S512x256_S2000x256_1_0_0_1_n_n.lhsIdx_val_of_single rfl i q
theorem rhs0 (i : S2000x256.Idx) (q : dot_S2000x512_S512x256_S2000x256_1_0_0_1_n_n.contr.Idx) : (dot_S2000x512_S512x256_S2000x256_1_0_0_1_n_n.rhsIdx i q 0).val = (q ⟨0, by decide⟩).val :=
  dot_S2000x512_S512x256_S2000x256_1_0_0_1_n_n.rhsIdx_val_of_single rfl i q
theorem rhs1 (i : S2000x256.Idx) (q : dot_S2000x512_S512x256_S2000x256_1_0_0_1_n_n.contr.Idx) : (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The product of a 2000 × 512 block with the 512 × 256 weight, into a zero accumulator, at `(p, q)`: the sum over `k` of the block's row `p` times the weight's column `q`. -/
theorem block_product (L : FVec Ideal S2000x512 .bf16) (R : FVec Ideal S512x256 .bf16) (p : Fin 2000) (q : Fin 256) :
    matmul dot_S2000x512_S512x256_S2000x256_1_0_0_1_n_n none L R (constant S2000x256 .f32 0x00000000#32) (ix2 p q) = ∑ k : Fin 512, L (ix2 p k) * R (ix2 k q) := by
  simp only [matmul]
  rw [Ideal.matmul_constant_zero_apply, ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q) ((contrEquiv1 dot_S2000x512_S512x256_S2000x256_1_0_0_1_n_n 512 rfl rfl).symm k) = ix2 p k := funext fun a => Fin.ext (by
    match a with
    | ⟨0, _⟩ => exact lhs0 _ _
    | ⟨1, _⟩ => exact (lhs1 _ _).trans hk)
  have er : dot_S2000x512_S512x256_S2000x256_1_0_0_1_n_n.rhsIdx (ix2 p q) ((contrEquiv1 dot_S2000x512_S512x256_S2000x256_1_0_0_1_n_n 512 rfl rfl).symm k) = ix2 k q := funext fun a => Fin.ext (by
    match a with
    | ⟨0, _⟩ => exact (rhs0 _ _).trans hk
    | ⟨1, _⟩ => exact rhs1 _ _)
  rw [el, er]

/-! ## The body's stored value at an entry -/

/-- What the body stores at `(p, q)` of its block: `(∑ k, x p k · w k q) · d p`. -/
theorem pay_apply (v0 : Vec Ideal S2000x512 .f32) (v2 : Vec Ideal S512x256 .f32) (v5 : Vec Ideal S2000x1 .f32)
    (p : Fin 2000) (q : Fin 256) :
    k0_pay1 (F := Ideal) v0 v2 v5 (ix2 p q) = (∑ k : Fin 512, v0 (ix2 p k) * v2 (ix2 k q)) * v5 (ix2 p (0 : Fin 1)) := by
  unfold k0_pay1
  rw [mulf_apply, block_product, broadcastTo_a1_ab_apply]
  simp only [shapeCast_self]
  refine congrArg (· * v5 (ix2 p (0 : Fin 1))) (Finset.sum_congr rfl fun k _ => ?_)
  rw [truncf_apply, truncf_apply]

/-- The stored value at any entry `j` of the block. -/
theorem pay_apply' (v0 : Vec Ideal S2000x512 .f32) (v2 : Vec Ideal S512x256 .f32) (v5 : Vec Ideal S2000x1 .f32)
    (j : S2000x256.Idx) :
    k0_pay1 (F := Ideal) v0 v2 v5 j
      = (∑ k : Fin 512, v0 (ix2 (row j) k) * v2 (ix2 k (col j))) * v5 (ix2 (row j) (0 : Fin 1)) := by
  conv_lhs => rw [eq_ix2 j]
  exact pay_apply v0 v2 v5 (j 0) (j 1)

/-! ## From the blocks to the table -/

section Table

variable (V : (c : Dev nD) → (b : Ref sig .tc) → Buf (Elt Ideal) ((c : Thread nD τ).loc b))

theorem hz2 : (![0, 0] : Fin 2 → Nat) = fun _ => 0 := funext fun a => by fin_cases a <;> rfl

/-- The index maps over the 25 grid points: the features, the factor column and the output move with the point along
    the rows; the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `stage0` of the region's entry arrays. -/
theorem flushed_eq (c : Dev nD) (t : Fin cfg0.N) :
    (dat0 V c).flushed 3 t = ((cfg0.win 3).blk t).view.read (Elt Ideal)
      (stage0 (V c main_arg0) (V c main_arg2) (V c main_v15)) := by
  show (cfg0.win 3).cut (grid0.coords t) ((dat0 V c).after 3 t) = _
  rw [after0_3]
  unfold out0_3
  rw [View.canon_unit_zero hz2]
  simp only [View.ld_unit_zero (S := S2000x512) hz2, View.ld_unit_zero (S := S2000x1) hz2, View.ld_unit_zero (S := S512x256) hz2]
  obtain ⟨e00, e01, e10, e11, e20, e21, e30, e31⟩ := idx_facts t
  funext j
  refine (pay_apply' _ _ _ j).trans ?_
  have hj0 : (j 0).val < 2000 := (j 0).isLt
  have hj1 : (j 1).val < 256 := (j 1).isLt
  have ht : t.val < 25 := t.isLt
  show _ = stage0 (V c main_arg0) (V c main_arg2) (V c main_v15) (((cfg0.win 3).blk t).view.emb j)
  unfold stage0
  have hX : ∀ k : Fin 512, iblk0 V c 0 t (ix2 (row j) k)
      = V c main_arg0 (ix2 (row (((cfg0.win 3).blk t).view.emb j)) k) := fun k => by
    show V c main_arg0 (((cfg0.win 0).blk t).view.emb (ix2 (row j) k)) = _
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 512 + 1 * k.val = k.val; omega
  have hW : ∀ k : Fin 512, iblk0 V c 1 t (ix2 k (col j))
      = V c main_arg2 (ix2 k (col (((cfg0.win 3).blk t).view.emb j))) := fun k => by
    show V c main_arg2 (((cfg0.win 1).blk t).view.emb (ix2 k (col j))) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 256 + 1 * (j 1).val = win0_3.index t (1 : Fin 2) * 256 + 1 * (j 1).val; omega
  have hD : iblk0 V c 2 t (ix2 (row j) (0 : Fin 1))
      = V c main_v15 (ix2 (row (((cfg0.win 3).blk t).view.emb j)) (0 : Fin 1)) := by
    show V c main_v15 (((cfg0.win 2).blk t).view.emb (ix2 (row j) (0 : Fin 1))) = _
    refine congrArg (V c main_v15) (funext fun a => Fin.ext ?_)
    match a with
    | ⟨0, _⟩ => show win0_2.index t (0 : Fin 2) * 2000 + 1 * (j 0).val = win0_3.index t (0 : Fin 2) * 2000 + 1 * (j 0).val; omega
    | ⟨1, _⟩ => show win0_2.index t (1 : Fin 2) * 1 + 1 * 0 = 0; omega
  rw [hD]
  refine congrArg (· * _) (Finset.sum_congr rfl fun k _ => ?_)
  rw [hX k, hW k]

/-- An index of the table is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v16).slice (win0_3.rect t)).set ↔ _
  rw [View.set_slice_whole, Rect.mem_set_unit]
  exact Iff.rfl

/-- The 25 blocks of 2000 rows tile the 50000 rows: row `r` is in the block of point `r / 2000`. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_3 _, ?_⟩
  obtain ⟨e00, e01, e10, e11, e20, e21, e30, e31⟩ := idx_facts ⟨(i 0).val / 2000, by rw [hN]; omega⟩
  rw [mem_blk]
  intro a
  match a with
  | ⟨0, _⟩ =>
    show win0_3.index ⟨(i 0).val / 2000, _⟩ (0 : Fin 2) * 2000 ≤ (i 0).val
      ∧ (i 0).val < win0_3.index ⟨(i 0).val / 2000, _⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, _⟩ (1 : Fin 2) * 256 ≤ (i 1).val
      ∧ (i 1).val < win0_3.index ⟨(i 0).val / 2000, _⟩ (1 : Fin 2) * 256 + 256
    rw [e31]
    omega

/-- THE TABLE after the region: `stage0` of the region's entry arrays. -/
theorem final (c : Dev nD) :
    (dat0 V c).arrAt 3 cfg0.N = stage0 (V c main_arg0) (V c main_arg2) (V c main_v15) :=
  (dat0 V c).arrAt_eq_of_cover 3 _ (fun t _ => flushed_eq V c t) (cover)

end Table

end Cert.Gcn.Region0

end
-- ==== Proof.Region1.lean ====
/-
  Region 1 of the kernel (a middle layer), read as values: what a block of 2000 rows holds after the body, entry by
  entry, and the whole output table after the 25 grid points.

  The body at point `t` loads rows `2000 t … 2000 t + 1999` of the aggregate `A` and of the factor column, the whole
  bias and weight, and stores `(max (A · d + b, 0) · W) · d` for its rows. The 25 blocks tile the 50000 rows, so the
  table ends at `stageL` of the region's entry arrays.
-/
import proofs.«141591_j20212116095606_2_alg».proof.Proof.Gen.KernelIdeal.Frame
import proofs.«141591_j20212116095606_2_alg».proof.Proof.KStages
import proofs.«141591_j20212116095606_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region1

open Idealize.ShloMosaic Idealize.ShloMosaic.TcCoe Idealize.ShloMosaic.ValueIdx Idealize.SL.Sem
open Cert.KernelIdeal Cert.KernelIdeal.Gen
open Idealize.ShloMosaic.Pipeline (Dat)

/-! ## The block product at an entry -/

theorem lhs0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem rhs0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem rhs1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product of a 2000 × 256 block with the 256 × 256 weight, into a zero accumulator, at `(p, q)`: the sum over
    `k` of the block's row `p` times the weight's column `q`. -/
theorem block_product (L : FVec Ideal S2000x256 .bf16) (R : FVec Ideal S256x256 .bf16) (p : Fin 2000) (q : Fin 256) :
    matmul dot_S2000x256_S256x256_S2000x256_1_0_0_1_n_n none L R (constant S2000x256 .f32 0x00000000#32) (ix2 p q) = ∑ k : Fin 256, L (ix2 p k) * R (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs0 _ _
    | ⟨1, _⟩ => exact (lhs1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs0 _ _).trans hk
    | ⟨1, _⟩ => exact rhs1 _ _)
  rw [el, er]

/-! ## The body's stored value at an entry -/

/-- What the body stores at `(p, q)` of its block: `(∑ k, max (a p k · d p + b k, 0) · w k q) · d p`. -/
theorem pay_apply (v0 : Vec Ideal S2000x256 .f32) (v2 : Vec Ideal S2000x1 .f32) (v6 : Vec Ideal S256 .f32)
    (v13 : Vec Ideal S256x256 .f32) (v16 : Vec Ideal S2000x1 .f32) (p : Fin 2000) (q : Fin 256) :
    k1_pay1 (F := Ideal) v0 v2 v6 v13 v16 (ix2 p q)
      = (∑ k : Fin 256, max (v0 (ix2 p k) * v2 (ix2 p (0 : Fin 1)) + v6 (ix1 k)) zeroF * v13 (ix2 k q))
        * v16 (ix2 p (0 : Fin 1)) := by
  unfold k1_pay1
  rw [mulf_apply, block_product, broadcastTo_a1_ab_apply]
  simp only [shapeCast_self]
  refine congrArg (· * v16 (ix2 p (0 : Fin 1))) (Finset.sum_congr rfl fun k _ => ?_)
  rw [truncf_apply, truncf_apply, maximumf_apply, addf_apply, mulf_apply, broadcastTo_a1_ab_apply,
    broadcastTo_1b_ab_apply, shapeCast_a_1a_apply, broadcast_apply]
  rfl

/-- The stored value at any entry `j` of the block. -/
theorem pay_apply' (v0 : Vec Ideal S2000x256 .f32) (v2 : Vec Ideal S2000x1 .f32) (v6 : Vec Ideal S256 .f32)
    (v13 : Vec Ideal S256x256 .f32) (v16 : Vec Ideal S2000x1 .f32) (j : S2000x256.Idx) :
    k1_pay1 (F := Ideal) v0 v2 v6 v13 v16 j
      = (∑ k : Fin 256, max (v0 (ix2 (row j) k) * v2 (ix2 (row j) (0 : Fin 1)) + v6 (ix1 k)) zeroF * v13 (ix2 k (col j)))
        * v16 (ix2 (row j) (0 : Fin 1)) := by
  conv_lhs => rw [eq_ix2 j]
  exact pay_apply v0 v2 v6 v13 v16 (j 0) (j 1)

/-! ## From the blocks to the table -/

section Table

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the 25 grid points: the aggregate, the factor column and the output move with the point along
    the rows; the bias and the weight stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `stageL` of the region's entry arrays. -/
theorem flushed_eq (c : Dev nD) (t : Fin cfg1.N) :
    (dat1 V c).flushed 4 t = ((cfg1.win 4).blk t).view.read (Elt Ideal)
      (stageL (V c main_v26) (V c main_v15) (V c main_arg3) (V c main_arg4)) := by
  show (cfg1.win 4).cut (grid1.coords t) ((dat1 V c).after 4 t) = _
  rw [after1_4]
  unfold out1_4
  rw [View.canon_unit_zero hz2]
  simp only [View.ld_unit_zero (S := S2000x256) hz2, View.ld_unit_zero (S := S2000x1) hz2, View.ld_unit_zero (S := S256) hz1,
    View.ld_unit_zero (S := S256x256) hz2]
  obtain ⟨e00, e01, e10, e11, e20, e30, e31, e40, e41⟩ := idx_facts t
  funext j
  refine (pay_apply' _ _ _ _ _ j).trans ?_
  have hj0 : (j 0).val < 2000 := (j 0).isLt
  have hj1 : (j 1).val < 256 := (j 1).isLt
  have ht : t.val < 25 := t.isLt
  show _ = stageL (V c main_v26) (V c main_v15) (V c main_arg3) (V c main_arg4) (((cfg1.win 4).blk t).view.emb j)
  unfold stageL
  -- the aggregate's block, read where the output's rectangle says
  have hA : ∀ k : Fin 256, iblk1 V c 0 t (ix2 (row j) k)
      = V c main_v26 (ix2 (row (((cfg1.win 4).blk t).view.emb j)) k) := fun k => by
    show V c main_v26 (((cfg1.win 0).blk t).view.emb (ix2 (row j) k)) = _
    refine congrArg (V c main_v26) (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 256 + 1 * k.val = k.val; omega
  -- the factor column's block
  have hD : iblk1 V c 1 t (ix2 (row j) (0 : Fin 1))
      = V c main_v15 (ix2 (row (((cfg1.win 4).blk t).view.emb j)) (0 : Fin 1)) := by
    show V c main_v15 (((cfg1.win 1).blk t).view.emb (ix2 (row j) (0 : Fin 1))) = _
    refine congrArg (V c main_v15) (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 1 + 1 * 0 = 0; omega
  -- the bias, whole
  have hB : ∀ k : Fin 256, iblk1 V c 2 t (ix1 k) = V c main_arg3 (ix1 k) := fun k => by
    show V c main_arg3 (((cfg1.win 2).blk t).view.emb (ix1 k)) = _
    refine congrArg (V c main_arg3) (funext fun a => Fin.ext ?_)
    match a with
    | ⟨0, _⟩ => show win1_2.index t (0 : Fin 1) * 256 + 1 * k.val = k.val; omega
  -- the weight, whole
  have hW : ∀ k : Fin 256, iblk1 V c 3 t (ix2 k (col j))
      = V c main_arg4 (ix2 k (col (((cfg1.win 4).blk t).view.emb j))) := fun k => by
    show V c main_arg4 (((cfg1.win 3).blk t).view.emb (ix2 k (col j))) = _
    refine congrArg (V c main_arg4) (funext fun a => Fin.ext ?_)
    match a with
    | ⟨0, _⟩ => show win1_3.index t (0 : Fin 2) * 256 + 1 * k.val = k.val; omega
    | ⟨1, _⟩ => show win1_3.index t (1 : Fin 2) * 256 + 1 * (j 1).val = win1_4.index t (1 : Fin 2) * 256 + 1 * (j 1).val; omega
  rw [hD]
  refine congrArg (· * _) (Finset.sum_congr rfl fun k _ => ?_)
  rw [hA k, hB k, hW k]

/-- An index of the table is in point `t`'s block iff each coordinate is in the block's range on its axis. -/
theorem mem_blk (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v27).slice (win1_4.rect t)).set ↔ _
  rw [View.set_slice_whole, Rect.mem_set_unit]
  exact Iff.rfl

/-- The 25 blocks of 2000 rows tile the 50000 rows: row `r` is in the block of point `r / 2000`. -/
theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_4 _, ?_⟩
  obtain ⟨e00, e01, e10, e11, e20, e30, e31, e40, e41⟩ := idx_facts ⟨(i 0).val / 2000, by rw [hN]; omega⟩
  rw [mem_blk]
  intro a
  match a with
  | ⟨0, _⟩ =>
    show win1_4.index ⟨(i 0).val / 2000, _⟩ (0 : Fin 2) * 2000 ≤ (i 0).val
      ∧ (i 0).val < win1_4.index ⟨(i 0).val / 2000, _⟩ (0 : Fin 2) * 2000 + 2000
    rw [e40]
    show (i 0).val / 2000 * 2000 ≤ (i 0).val ∧ (i 0).val < (i 0).val / 2000 * 2000 + 2000
    omega
  | ⟨1, _⟩ =>
    show win1_4.index ⟨(i 0).val / 2000, _⟩ (1 : Fin 2) * 256 ≤ (i 1).val
      ∧ (i 1).val < win1_4.index ⟨(i 0).val / 2000, _⟩ (1 : Fin 2) * 256 + 256
    rw [e41]
    omega

/-- THE TABLE after the region: `stageL` of the region's entry arrays. -/
theorem final (c : Dev nD) :
    (dat1 V c).arrAt 4 cfg1.N = stageL (V c main_v26) (V c main_v15) (V c main_arg3) (V c main_arg4) :=
  (dat1 V c).arrAt_eq_of_cover 4 _ (fun t _ => flushed_eq V c t) (cover)

end Table

end Cert.Gcn.Region1

end
-- ==== Proof.Region2.lean ====
/-
  Region 2 of the kernel (a middle layer), read as values: what a block of 2000 rows holds after the body, entry by
  entry, and the whole output table after the 25 grid points.

  The body at point `t` loads rows `2000 t … 2000 t + 1999` of the aggregate `A` and of the factor column, the whole
  bias and weight, and stores `(max (A · d + b, 0) · W) · d` for its rows. The 25 blocks tile the 50000 rows, so the
  table ends at `stageL` of the region's entry arrays.
-/
import proofs.«141591_j20212116095606_2_alg».proof.Proof.Gen.KernelIdeal.Frame
import proofs.«141591_j20212116095606_2_alg».proof.Proof.KStages
import proofs.«141591_j20212116095606_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region2

open Idealize.ShloMosaic Idealize.ShloMosaic.TcCoe Idealize.ShloMosaic.ValueIdx Idealize.SL.Sem
open Cert.KernelIdeal Cert.KernelIdeal.Gen
open Idealize.ShloMosaic.Pipeline (Dat)

/-! ## The block product at an entry -/

theorem lhs0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem rhs0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem rhs1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product of a 2000 × 256 block with the 256 × 256 weight, into a zero accumulator, at `(p, q)`: the sum over
    `k` of the block's row `p` times the weight's column `q`. -/
theorem block_product (L : FVec Ideal S2000x256 .bf16) (R : FVec Ideal S256x256 .bf16) (p : Fin 2000) (q : Fin 256) :
    matmul dot_S2000x256_S256x256_S2000x256_1_0_0_1_n_n none L R (constant S2000x256 .f32 0x00000000#32) (ix2 p q) = ∑ k : Fin 256, L (ix2 p k) * R (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs0 _ _
    | ⟨1, _⟩ => exact (lhs1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs0 _ _).trans hk
    | ⟨1, _⟩ => exact rhs1 _ _)
  rw [el, er]

/-! ## The body's stored value at an entry -/

/-- What the body stores at `(p, q)` of its block: `(∑ k, max (a p k · d p + b k, 0) · w k q) · d p`. -/
theorem pay_apply (v0 : Vec Ideal S2000x256 .f32) (v2 : Vec Ideal S2000x1 .f32) (v6 : Vec Ideal S256 .f32)
    (v13 : Vec Ideal S256x256 .f32) (v16 : Vec Ideal S2000x1 .f32) (p : Fin 2000) (q : Fin 256) :
    k2_pay1 (F := Ideal) v0 v2 v6 v13 v16 (ix2 p q)
      = (∑ k : Fin 256, max (v0 (ix2 p k) * v2 (ix2 p (0 : Fin 1)) + v6 (ix1 k)) zeroF * v13 (ix2 k q))
        * v16 (ix2 p (0 : Fin 1)) := by
  unfold k2_pay1
  rw [mulf_apply, block_product, broadcastTo_a1_ab_apply]
  simp only [shapeCast_self]
  refine congrArg (· * v16 (ix2 p (0 : Fin 1))) (Finset.sum_congr rfl fun k _ => ?_)
  rw [truncf_apply, truncf_apply, maximumf_apply, addf_apply, mulf_apply, broadcastTo_a1_ab_apply,
    broadcastTo_1b_ab_apply, shapeCast_a_1a_apply, broadcast_apply]
  rfl

/-- The stored value at any entry `j` of the block. -/
theorem pay_apply' (v0 : Vec Ideal S2000x256 .f32) (v2 : Vec Ideal S2000x1 .f32) (v6 : Vec Ideal S256 .f32)
    (v13 : Vec Ideal S256x256 .f32) (v16 : Vec Ideal S2000x1 .f32) (j : S2000x256.Idx) :
    k2_pay1 (F := Ideal) v0 v2 v6 v13 v16 j
      = (∑ k : Fin 256, max (v0 (ix2 (row j) k) * v2 (ix2 (row j) (0 : Fin 1)) + v6 (ix1 k)) zeroF * v13 (ix2 k (col j)))
        * v16 (ix2 (row j) (0 : Fin 1)) := by
  conv_lhs => rw [eq_ix2 j]
  exact pay_apply v0 v2 v6 v13 v16 (j 0) (j 1)

/-! ## From the blocks to the table -/

section Table

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the 25 grid points: the aggregate, the factor column and the output move with the point along
    the rows; the bias and the weight stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of `stageL` of the region's entry arrays. -/
theorem flushed_eq (c : Dev nD) (t : Fin cfg2.N) :
    (dat2 V c).flushed 4 t = ((cfg2.win 4).blk t).view.read (Elt Ideal)
      (stageL (V c main_v37) (V c main_v15) (V c main_arg5) (V c main_arg6)) := by
  show (cfg2.win 4).cut (grid2.coords t) ((dat2 V c).after 4 t) = _
  rw [after2_4]
  unfold out2_4
  rw [View.canon_unit_zero hz2]
  simp only [View.ld_unit_zero (S := S2000x256) hz2, View.ld_unit_zero (S := S2000x1) hz2, View.ld_unit_zero (S := S256) hz1,
    View.ld_unit_zero (S := S256x256) hz2]
  obtain ⟨e00, e01, e10, e11, e20, e30, e31, e40, e41⟩ := idx_facts t
  funext j
  refine (pay_apply' _ _ _ _ _ j).trans ?_
  have hj0 : (j 0).val < 2000 := (j 0).isLt
  have hj1 : (j 1).val < 256 := (j 1).isLt
  have ht : t.val < 25 := t.isLt
  show _ = stageL (V c main_v37) (V c main_v15) (V c main_arg5) (V c main_arg6) (((cfg2.win 4).blk t).view.emb j)
  unfold stageL
  -- the aggregate's block, read where the output's rectangle says
  have hA : ∀ k : Fin 256, iblk2 V c 0 t (ix2 (row j) k)
      = V c main_v37 (ix2 (row (((cfg2.win 4).blk t).view.emb j)) k) := fun k => by
    show V c main_v37 (((cfg2.win 0).blk t).view.emb (ix2 (row j) k)) = _
    refine congrArg (V c main_v37) (funext fun a => Fin.ext ?_)
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 256 + 1 * k.val = k.val; omega
  -- the factor column's block
  have hD : iblk2 V c 1 t (ix2 (row j) (0 : Fin 1))
      = V c main_v15 (ix2 (row (((cfg2.win 4).blk t).view.emb j)) (0 : Fin 1)) := by
    show V c main_v15 (((cfg2.win 1).blk t).view.emb (ix2 (row j) (0 : Fin 1))) = _
    refine congrArg (V c main_v15) (funext fun a => Fin.ext ?_)
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 1 + 1 * 0 = 0; omega
  -- the bias, whole
  have hB : ∀ k : Fin 256, iblk2 V c 2 t (ix1 k) = V c main_arg5 (ix1 k) := fun k => by
    show V c main_arg5 (((cfg2.win 2).blk t).view.emb (ix1 k)) = _
    refine congrArg (V c main_arg5) (funext fun a => Fin.ext ?_)
    match a with
    | ⟨0, _⟩ => show win2_2.index t (0 : Fin 1) * 256 + 1 * k.val = k.val; omega
  -- the weight, whole
  have hW : ∀ k : Fin 256, iblk2 V c 3 t (ix2 k (col j))
      = V c main_arg6 (ix2 k (col (((cfg2.win 4).blk t).view.emb j))) := fun k => by
    show V c main_arg6 (((cfg2.win 3).blk t).view.emb (ix2 k (col j))) = _
    refine congrArg (V c main_arg6) (funext fun a => Fin.ext ?_)
    match a with
    | ⟨0, _⟩ => show win2_3.index t (0 : Fin 2) * 256 + 1 * k.val = k.val; omega
    | ⟨1, _⟩ => show win2_3.index t (1 : Fin 2) * 256 + 1 * (j 1).val = win2_4.index t (1 : Fin 2) * 256 + 1 * (j 1).val; omega
  rw [hD]
  refine congrArg (· * _) (Finset.sum_congr rfl fun k _ => ?_)
  rw [hA k, hB k, hW k]

/-- An index of the table is in point `t`'s block iff each coordinate is in the block's range on its axis. -/
theorem mem_blk (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v38).slice (win2_4.rect t)).set ↔ _
  rw [View.set_slice_whole, Rect.mem_set_unit]
  exact Iff.rfl

/-- The 25 blocks of 2000 rows tile the 50000 rows: row `r` is in the block of point `r / 2000`. -/
theorem cover (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_4 _, ?_⟩
  obtain ⟨e00, e01, e10, e11, e20, e30, e31, e40, e41⟩ := idx_facts ⟨(i 0).val / 2000, by rw [hN]; omega⟩
  rw [mem_blk]
  intro a
  match a with
  | ⟨0, _⟩ =>
    show win2_4.index ⟨(i 0).val / 2000, _⟩ (0 : Fin 2) * 2000 ≤ (i 0).val
      ∧ (i 0).val < win2_4.index ⟨(i 0).val / 2000, _⟩ (0 : Fin 2) * 2000 + 2000
    rw [e40]
    show (i 0).val / 2000 * 2000 ≤ (i 0).val ∧ (i 0).val < (i 0).val / 2000 * 2000 + 2000
    omega
  | ⟨1, _⟩ =>
    show win2_4.index ⟨(i 0).val / 2000, _⟩ (1 : Fin 2) * 256 ≤ (i 1).val
      ∧ (i 1).val < win2_4.index ⟨(i 0).val / 2000, _⟩ (1 : Fin 2) * 256 + 256
    rw [e41]
    omega

/-- THE TABLE after the region: `stageL` of the region's entry arrays. -/
theorem final (c : Dev nD) :
    (dat2 V c).arrAt 4 cfg2.N = stageL (V c main_v37) (V c main_v15) (V c main_arg5) (V c main_arg6) :=
  (dat2 V c).arrAt_eq_of_cover 4 _ (fun t _ => flushed_eq V c t) (cover)

end Table

end Cert.Gcn.Region2

end
-- ==== Proof.Region3.lean ====
/-
  Region 3 of the kernel (the readout), read as values.

  The body at point `t` loads rows `2000 t … 2000 t + 1999` of the last aggregate and of the factor column, the whole
  bias, the readout weight (one column) and the readout bias (one number), and stores `max (A · d + b, 0) · w + c` for
  its rows. The 25 blocks tile the 50000 rows, so the column ends at `stageOut` of the region's entry arrays.
-/
import proofs.«141591_j20212116095606_2_alg».proof.Proof.Gen.KernelIdeal.Frame
import proofs.«141591_j20212116095606_2_alg».proof.Proof.KStages
import proofs.«141591_j20212116095606_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Region3

open Idealize.ShloMosaic Idealize.ShloMosaic.TcCoe Idealize.ShloMosaic.ValueIdx Idealize.SL.Sem
open Cert.KernelIdeal Cert.KernelIdeal.Gen
open Idealize.ShloMosaic.Pipeline (Dat)

/-! ## The block product at an entry -/

theorem lhs0 (i : S2000x1.Idx) (q : dot_S2000x256_S256x1_S2000x1_1_0_0_1_n_n.contr.Idx) : (dot_S2000x256_S256x1_S2000x1_1_0_0_1_n_n.lhsIdx i q 0).val = (i 0).val := by
  unfold DotDims.lhsIdx
  rw [dif_neg (show ¬(0 : Fin S2000x1.rank) ∈ dot_S2000x256_S256x1_S2000x1_1_0_0_1_n_n.lhsBatch by decide), dif_pos (show (0 : Fin S2000x1.rank) ∈ dot_S2000x256_S256x1_S2000x1_1_0_0_1_n_n.lhsNonContracting by decide)]
  rfl
theorem lhs1 (i : S2000x1.Idx) (q : dot_S2000x256_S256x1_S2000x1_1_0_0_1_n_n.contr.Idx) : (dot_S2000x256_S256x1_S2000x1_1_0_0_1_n_n.lhsIdx i q 1).val = (q ⟨0, by decide⟩).val :=
  dot_S2000x256_S256x1_S2000x1_1_0_0_1_n_n.lhsIdx_val_of_single rfl i q
theorem rhs0 (i : S2000x1.Idx) (q : dot_S2000x256_S256x1_S2000x1_1_0_0_1_n_n.contr.Idx) : (dot_S2000x256_S256x1_S2000x1_1_0_0_1_n_n.rhsIdx i q 0).val = (q ⟨0, by decide⟩).val :=
  dot_S2000x256_S256x1_S2000x1_1_0_0_1_n_n.rhsIdx_val_of_single rfl i q
theorem rhs1 (i : S2000x1.Idx) (q : dot_S2000x256_S256x1_S2000x1_1_0_0_1_n_n.contr.Idx) : (dot_S2000x256_S256x1_S2000x1_1_0_0_1_n_n.rhsIdx i q 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

/-- The product of a 2000 × 256 block with the 256 × 1 weight, into a zero accumulator, at `(p, q)`: the sum over `k` of the block's row `p` times the weight's one column. -/
theorem block_product (L : FVec Ideal S2000x256 .bf16) (R : FVec Ideal S256x1 .bf16) (p : Fin 2000) (q : Fin 1) :
    matmul dot_S2000x256_S256x1_S2000x1_1_0_0_1_n_n none L R (constant S2000x1 .f32 0x00000000#32) (ix2 p q) = ∑ k : Fin 256, L (ix2 p k) * R (ix2 k q) := by
  simp only [matmul]
  rw [Ideal.matmul_constant_zero_apply, ← Equiv.sum_comp (contrEquiv1 dot_S2000x256_S256x1_S2000x1_1_0_0_1_n_n 256 rfl rfl).symm]
  refine Finset.sum_congr rfl fun k _ => ?_
  have hk := contrEquiv1_symm_val dot_S2000x256_S256x1_S2000x1_1_0_0_1_n_n 256 rfl rfl k
  have el : dot_S2000x256_S256x1_S2000x1_1_0_0_1_n_n.lhsIdx (ix2 p q) ((contrEquiv1 dot_S2000x256_S256x1_S2000x1_1_0_0_1_n_n 256 rfl rfl).symm k) = ix2 p k := funext fun a => Fin.ext (by
    match a with
    | ⟨0, _⟩ => exact lhs0 _ _
    | ⟨1, _⟩ => exact (lhs1 _ _).trans hk)
  have er : dot_S2000x256_S256x1_S2000x1_1_0_0_1_n_n.rhsIdx (ix2 p q) ((contrEquiv1 dot_S2000x256_S256x1_S2000x1_1_0_0_1_n_n 256 rfl rfl).symm k) = ix2 k q := funext fun a => Fin.ext (by
    match a with
    | ⟨0, _⟩ => exact (rhs0 _ _).trans hk
    | ⟨1, _⟩ => exact rhs1 _ _)
  rw [el, er]

/-! ## The body's stored value at an entry -/

/-- What the body stores at row `p` of its block: `(∑ k, max (a p k · d p + b k, 0) · w k) + c`. -/
theorem pay_apply (v0 : Vec Ideal S2000x256 .f32) (v2 : Vec Ideal S2000x1 .f32) (v6 : Vec Ideal S256 .f32)
    (v13 : Vec Ideal S256x1 .f32) (v16 : Vec Ideal S1 .f32) (p : Fin 2000) (q : Fin 1) :
    k3_pay1 (F := Ideal) v0 v2 v6 v13 v16 (ix2 p q)
      = (∑ k : Fin 256, max (v0 (ix2 p k) * v2 (ix2 p (0 : Fin 1)) + v6 (ix1 k)) zeroF * v13 (ix2 k q)) + v16 (ix1 q) := by
  unfold k3_pay1
  rw [addf_apply, block_product, broadcastTo_1b_ab_apply, shapeCast_a_1a_apply]
  refine congrArg (· + v16 (ix1 q)) (Finset.sum_congr rfl fun k _ => ?_)
  simp only [shapeCast_self]
  rw [truncf_apply, truncf_apply, maximumf_apply, addf_apply, mulf_apply, broadcastTo_a1_ab_apply,
    broadcastTo_1b_ab_apply, shapeCast_a_1a_apply, broadcast_apply]
  rfl

/-- The stored value at any entry `j` of the block (its one column is column 0). -/
theorem pay_apply' (v0 : Vec Ideal S2000x256 .f32) (v2 : Vec Ideal S2000x1 .f32) (v6 : Vec Ideal S256 .f32)
    (v13 : Vec Ideal S256x1 .f32) (v16 : Vec Ideal S1 .f32) (j : S2000x1.Idx) :
    k3_pay1 (F := Ideal) v0 v2 v6 v13 v16 j
      = (∑ k : Fin 256, max (v0 (ix2 (row j) k) * v2 (ix2 (row j) (0 : Fin 1)) + v6 (ix1 k)) zeroF * v13 (ix2 k (0 : Fin 1)))
        + v16 (ix1 (0 : Fin 1)) := by
  obtain ⟨p, q, rfl⟩ : ∃ (p : Fin 2000) (q : Fin 1), j = ix2 p q := ⟨j 0, j 1, eq_ix2 j⟩
  obtain rfl : q = 0 := Subsingleton.elim _ _
  exact pay_apply v0 v2 v6 v13 v16 p 0

/-! ## From the blocks to the column -/

section Table

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the 25 grid points: the aggregate, the factor column and the output move with the point along
    the rows; the bias, the readout weight and the readout bias stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- What point `t` writes back is block `t` of `stageOut` of the region's entry arrays. -/
theorem flushed_eq (c : Dev nD) (t : Fin cfg3.N) :
    (dat3 V c).flushed 5 t = ((cfg3.win 5).blk t).view.read (Elt Ideal)
      (stageOut (V c main_v48) (V c main_v15) (V c main_arg7) (V c main_arg8) (V c main_arg9)) := by
  show (cfg3.win 5).cut (grid3.coords t) ((dat3 V c).after 5 t) = _
  rw [after3_5]
  unfold out3_5
  rw [View.canon_unit_zero hz2]
  simp only [View.ld_unit_zero (S := S2000x256) hz2, View.ld_unit_zero (S := S2000x1) hz2, View.ld_unit_zero (S := S256) hz1,
    View.ld_unit_zero (S := S256x1) hz2, View.ld_unit_zero (S := S1) hz1]
  obtain ⟨e00, e01, e10, e11, e20, e30, e31, e40, e50, e51⟩ := idx_facts t
  funext j
  refine (pay_apply' _ _ _ _ _ j).trans ?_
  have hj0 : (j 0).val < 2000 := (j 0).isLt
  have hj1 : (j 1).val < 1 := (j 1).isLt
  have ht : t.val < 25 := t.isLt
  show _ = stageOut (V c main_v48) (V c main_v15) (V c main_arg7) (V c main_arg8) (V c main_arg9) (((cfg3.win 5).blk t).view.emb j)
  unfold stageOut
  have hA : ∀ k : Fin 256, iblk3 V c 0 t (ix2 (row j) k)
      = V c main_v48 (ix2 (row (((cfg3.win 5).blk t).view.emb j)) k) := fun k => by
    show V c main_v48 (((cfg3.win 0).blk t).view.emb (ix2 (row j) k)) = _
    refine congrArg (V c main_v48) (funext fun a => Fin.ext ?_)
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 256 + 1 * k.val = k.val; omega
  have hD : iblk3 V c 1 t (ix2 (row j) (0 : Fin 1))
      = V c main_v15 (ix2 (row (((cfg3.win 5).blk t).view.emb j)) (0 : Fin 1)) := by
    show V c main_v15 (((cfg3.win 1).blk t).view.emb (ix2 (row j) (0 : Fin 1))) = _
    refine congrArg (V c main_v15) (funext fun a => Fin.ext ?_)
    match a with
    | ⟨0, _⟩ => show win3_1.index t (0 : Fin 2) * 2000 + 1 * (j 0).val = win3_5.index t (0 : Fin 2) * 2000 + 1 * (j 0).val; omega
    | ⟨1, _⟩ => show win3_1.index t (1 : Fin 2) * 1 + 1 * 0 = 0; omega
  have hB : ∀ k : Fin 256, iblk3 V c 2 t (ix1 k) = V c main_arg7 (ix1 k) := fun k => by
    show V c main_arg7 (((cfg3.win 2).blk t).view.emb (ix1 k)) = _
    refine congrArg (V c main_arg7) (funext fun a => Fin.ext ?_)
    match a with
    | ⟨0, _⟩ => show win3_2.index t (0 : Fin 1) * 256 + 1 * k.val = k.val; omega
  have hW : ∀ k : Fin 256, iblk3 V c 3 t (ix2 k (0 : Fin 1)) = V c main_arg8 (ix2 k (0 : Fin 1)) := fun k => by
    show V c main_arg8 (((cfg3.win 3).blk t).view.emb (ix2 k (0 : Fin 1))) = _
    refine congrArg (V c main_arg8) (funext fun a => Fin.ext ?_)
    match a with
    | ⟨0, _⟩ => show win3_3.index t (0 : Fin 2) * 256 + 1 * k.val = k.val; omega
    | ⟨1, _⟩ => show win3_3.index t (1 : Fin 2) * 1 + 1 * 0 = 0; omega
  have hC : iblk3 V c 4 t (ix1 (0 : Fin 1)) = V c main_arg9 (ix1 (0 : Fin 1)) := by
    show V c main_arg9 (((cfg3.win 4).blk t).view.emb (ix1 (0 : Fin 1))) = _
    refine congrArg (V c main_arg9) (funext fun a => Fin.ext ?_)
    match a with
    | ⟨0, _⟩ => show win3_4.index t (0 : Fin 1) * 1 + 1 * 0 = 0; omega
  rw [hD, hC]
  refine congrArg (· + _) (Finset.sum_congr rfl fun k _ => ?_)
  rw [hA k, hB k, hW k]

/-- An index of the column is in point `t`'s block iff each coordinate is in the block's range on its axis. -/
theorem mem_blk (t : Fin cfg3.N) (i : S50000x1.Idx) :
    i ∈ ((cfg3.win 5).blk t).view.set ↔ ∀ a : Fin 2, win3_5.index t a * S2000x1.size a ≤ (i a).val
      ∧ (i a).val < win3_5.index t a * S2000x1.size a + S2000x1.size a := by
  show i ∈ ((View.whole main_v49).slice (win3_5.rect t)).set ↔ _
  rw [View.set_slice_whole, Rect.mem_set_unit]
  exact Iff.rfl

/-- The 25 blocks of 2000 rows tile the 50000 rows: row `r` is in the block of point `r / 2000`. -/
theorem cover (i : S50000x1.Idx) :
    ∃ t : Fin cfg3.N, (cfg3.win 5).flush t = true ∧ i ∈ ((cfg3.win 5).blk t).view.set := by
  have hi0 : (i 0).val < 50000 := (i 0).isLt
  have hi1 : (i 1).val < 1 := (i 1).isLt
  have hN : cfg3.N = 25 := N_3
  refine ⟨⟨(i 0).val / 2000, by rw [hN]; omega⟩, flush3_5 _, ?_⟩
  obtain ⟨e00, e01, e10, e11, e20, e30, e31, e40, e50, e51⟩ := idx_facts ⟨(i 0).val / 2000, by rw [hN]; omega⟩
  rw [mem_blk]
  intro a
  match a with
  | ⟨0, _⟩ =>
    show win3_5.index ⟨(i 0).val / 2000, _⟩ (0 : Fin 2) * 2000 ≤ (i 0).val
      ∧ (i 0).val < win3_5.index ⟨(i 0).val / 2000, _⟩ (0 : Fin 2) * 2000 + 2000
    rw [e50]
    show (i 0).val / 2000 * 2000 ≤ (i 0).val ∧ (i 0).val < (i 0).val / 2000 * 2000 + 2000
    omega
  | ⟨1, _⟩ =>
    show win3_5.index ⟨(i 0).val / 2000, _⟩ (1 : Fin 2) * 1 ≤ (i 1).val
      ∧ (i 1).val < win3_5.index ⟨(i 0).val / 2000, _⟩ (1 : Fin 2) * 1 + 1
    rw [e51]
    omega

/-- THE COLUMN after the region: `stageOut` of the region's entry arrays. -/
theorem final (c : Dev nD) :
    (dat3 V c).arrAt 5 cfg3.N = stageOut (V c main_v48) (V c main_v15) (V c main_arg7) (V c main_arg8) (V c main_arg9) :=
  (dat3 V c).arrAt_eq_of_cover 5 _ (fun t _ => flushed_eq V c t) (cover)

end Table

end Cert.Gcn.Region3

end
-- ==== Proof.KFold.lean ====
/-
  The kernel program's buffers at the boundaries between its host stretches and its four regions, read as values.

  From the launch memory: the first stretch computes the edges' source and target vectors and the factor column; each
  region leaves its output table at the stage function of its entry arrays (Region0 … Region3); each stretch between two
  regions gathers the table's rows at the sources and adds them into the targets' rows (`aggK`); the last stretch drops
  the readout's unit axis. The vectors, the factor column and the arguments pass through every boundary unchanged.
-/
import proofs.«141591_j20212116095606_2_alg».proof.Proof.KRun
import proofs.«141591_j20212116095606_2_alg».proof.Proof.KSpec
import proofs.«141591_j20212116095606_2_alg».proof.Proof.Region0
import proofs.«141591_j20212116095606_2_alg».proof.Proof.Region1
import proofs.«141591_j20212116095606_2_alg».proof.Proof.Region2
import proofs.«141591_j20212116095606_2_alg».proof.Proof.Region3
import Idealize.ShloMosaic.Lib.StableHlo.Run

set_option maxRecDepth 16384

noncomputable section

namespace Cert.Gcn.KFold

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

/-! ## The host stretches, from any contents `F` of the buffers they are entered with -/

set_option maxHeartbeats 1600000 in
/-- The first stretch computes the edges' source vector from the edge array, -/
theorem a0_main_v3 (F : Valuation τ sig (Elt Ideal)) : StableHlo.after hostOps0 F (Proc.devRef .tc main_v3) = Cert.ReferenceIdeal.Read.val_main_v3 (F := Ideal) (F (Proc.devRef .tc main_arg1)) :=
  by
  dsimp only [hostOps0]
  after_results
  rfl

set_option maxHeartbeats 1600000 in
/-- their target vector, -/
theorem a0_main_v6 (F : Valuation τ sig (Elt Ideal)) : StableHlo.after hostOps0 F (Proc.devRef .tc main_v6) = Cert.ReferenceIdeal.Read.val_main_v6 (F := Ideal) (F (Proc.devRef .tc main_arg1)) :=
  by
  dsimp only [hostOps0]
  after_results
  rfl

set_option maxHeartbeats 1600000 in
/-- the in-degree of every node (a one added into the target of every edge), -/
theorem a0_main_v10 (F : Valuation τ sig (Elt Ideal)) : StableHlo.after hostOps0 F (Proc.devRef .tc main_v10) = Cert.ReferenceIdeal.Read.val_main_v10 (F := Ideal) (F (Proc.devRef .tc main_arg1)) :=
  by
  dsimp only [hostOps0]
  after_results
  rfl

set_option maxHeartbeats 1600000 in
/-- where it is positive, -/
theorem a0_main_v12 (F : Valuation τ sig (Elt Ideal)) : StableHlo.after hostOps0 F (Proc.devRef .tc main_v12) = cmpf (F := Ideal) .ogt (StableHlo.after hostOps0 F (Proc.devRef .tc main_v10)) (broadcastInDim S50000 ![] bcast_S_S50000 (constant S_ .f32 0x00000000#32)) :=
  by
  dsimp only [hostOps0]
  after_results

set_option maxHeartbeats 1600000 in
/-- its inverse square root, -/
theorem a0_main_v13 (F : Valuation τ sig (Elt Ideal)) : StableHlo.after hostOps0 F (Proc.devRef .tc main_v13) = (Host.rsqrt ((StableHlo.after hostOps0 F (Proc.devRef .tc main_v10) : FVec Ideal S50000 .f32)) : FVec Ideal S50000 .f32) :=
  by
  dsimp only [hostOps0]
  after_results

set_option maxHeartbeats 1600000 in
/-- and a zero. -/
theorem a0_main_cst_2 (F : Valuation τ sig (Elt Ideal)) : StableHlo.after hostOps0 F (Proc.devRef .tc main_cst_2) = constant (F := Ideal) S_ .f32 0x00000000#32 :=
  by
  dsimp only [hostOps0]
  after_results

set_option maxHeartbeats 1600000 in
theorem a0_main_arg0 (F : Valuation τ sig (Elt Ideal)) : StableHlo.after hostOps0 F (Proc.devRef .tc main_arg0) = F (Proc.devRef .tc main_arg0) :=
  by
  dsimp only [hostOps0]
  after_results

set_option maxHeartbeats 1600000 in
theorem a0_main_arg2 (F : Valuation τ sig (Elt Ideal)) : StableHlo.after hostOps0 F (Proc.devRef .tc main_arg2) = F (Proc.devRef .tc main_arg2) :=
  by
  dsimp only [hostOps0]
  after_results

set_option maxHeartbeats 1600000 in
theorem a0_main_arg3 (F : Valuation τ sig (Elt Ideal)) : StableHlo.after hostOps0 F (Proc.devRef .tc main_arg3) = F (Proc.devRef .tc main_arg3) :=
  by
  dsimp only [hostOps0]
  after_results

set_option maxHeartbeats 1600000 in
theorem a0_main_arg4 (F : Valuation τ sig (Elt Ideal)) : StableHlo.after hostOps0 F (Proc.devRef .tc main_arg4) = F (Proc.devRef .tc main_arg4) :=
  by
  dsimp only [hostOps0]
  after_results

set_option maxHeartbeats 1600000 in
theorem a0_main_arg5 (F : Valuation τ sig (Elt Ideal)) : StableHlo.after hostOps0 F (Proc.devRef .tc main_arg5) = F (Proc.devRef .tc main_arg5) :=
  by
  dsimp only [hostOps0]
  after_results

set_option maxHeartbeats 1600000 in
theorem a0_main_arg6 (F : Valuation τ sig (Elt Ideal)) : StableHlo.after hostOps0 F (Proc.devRef .tc main_arg6) = F (Proc.devRef .tc main_arg6) :=
  by
  dsimp only [hostOps0]
  after_results

set_option maxHeartbeats 1600000 in
theorem a0_main_arg7 (F : Valuation τ sig (Elt Ideal)) : StableHlo.after hostOps0 F (Proc.devRef .tc main_arg7) = F (Proc.devRef .tc main_arg7) :=
  by
  dsimp only [hostOps0]
  after_results

set_option maxHeartbeats 1600000 in
theorem a0_main_arg8 (F : Valuation τ sig (Elt Ideal)) : StableHlo.after hostOps0 F (Proc.devRef .tc main_arg8) = F (Proc.devRef .tc main_arg8) :=
  by
  dsimp only [hostOps0]
  after_results

set_option maxHeartbeats 1600000 in
theorem a0_main_arg9 (F : Valuation τ sig (Elt Ideal)) : StableHlo.after hostOps0 F (Proc.devRef .tc main_arg9) = F (Proc.devRef .tc main_arg9) :=
  by
  dsimp only [hostOps0]
  after_results

/-- The second stretch chooses the inverse square root where the degree is positive, else zero: the node factor. -/
theorem a1_main_v14 (F : Valuation τ sig (Elt Ideal)) : StableHlo.after hostOps0_1 F (Proc.devRef .tc main_v14) = select (F (Proc.devRef .tc main_v12)) (F (Proc.devRef .tc main_v13)) (broadcastInDim S50000 ![] bcast_S_S50000 (F (Proc.devRef .tc main_cst_2))) :=
  by
  dsimp only [hostOps0_1]
  after_results
  rfl

/-- The same with the three operands named. -/
theorem a1_main_v14' (F : Valuation τ sig (Elt Ideal)) (c12 : IVec S50000 1) (c13 : FVec Ideal S50000 .f32) (z0 : FVec Ideal S_ .f32)
    (h12 : F (Proc.devRef .tc main_v12) = c12) (h13 : F (Proc.devRef .tc main_v13) = c13) (hz : F (Proc.devRef .tc main_cst_2) = z0) :
    StableHlo.after hostOps0_1 F (Proc.devRef .tc main_v14) = select c12 c13 (broadcastInDim S50000 ![] bcast_S_S50000 z0) := by
  subst h12 h13 hz
  exact a1_main_v14 F

theorem a1_main_v3 (F : Valuation τ sig (Elt Ideal)) : StableHlo.after hostOps0_1 F (Proc.devRef .tc main_v3) = F (Proc.devRef .tc main_v3) :=
  by
  dsimp only [hostOps0_1]
  after_results

theorem a1_main_v6 (F : Valuation τ sig (Elt Ideal)) : StableHlo.after hostOps0_1 F (Proc.devRef .tc main_v6) = F (Proc.devRef .tc main_v6) :=
  by
  dsimp only [hostOps0_1]
  after_results

theorem a1_main_arg0 (F : Valuation τ sig (Elt Ideal)) : StableHlo.after hostOps0_1 F (Proc.devRef .tc main_arg0) = F (Proc.devRef .tc main_arg0) :=
  by
  dsimp only [hostOps0_1]
  after_results

theorem a1_main_arg2 (F : Valuation τ sig (Elt Ideal)) : StableHlo.after hostOps0_1 F (Proc.devRef .tc main_arg2) = F (Proc.devRef .tc main_arg2) :=
  by
  dsimp only [hostOps0_1]
  after_results

theorem a1_main_arg3 (F : Valuation τ sig (Elt Ideal)) : StableHlo.after hostOps0_1 F (Proc.devRef .tc main_arg3) = F (Proc.devRef .tc main_arg3) :=
  by
  dsimp only [hostOps0_1]
  after_results

theorem a1_main_arg4 (F : Valuation τ sig (Elt Ideal)) : StableHlo.after hostOps0_1 F (Proc.devRef .tc main_arg4) = F (Proc.devRef .tc main_arg4) :=
  by
  dsimp only [hostOps0_1]
  after_results

theorem a1_main_arg5 (F : Valuation τ sig (Elt Ideal)) : StableHlo.after hostOps0_1 F (Proc.devRef .tc main_arg5) = F (Proc.devRef .tc main_arg5) :=
  by
  dsimp only [hostOps0_1]
  after_results

theorem a1_main_arg6 (F : Valuation τ sig (Elt Ideal)) : StableHlo.after hostOps0_1 F (Proc.devRef .tc main_arg6) = F (Proc.devRef .tc main_arg6) :=
  by
  dsimp only [hostOps0_1]
  after_results

theorem a1_main_arg7 (F : Valuation τ sig (Elt Ideal)) : StableHlo.after hostOps0_1 F (Proc.devRef .tc main_arg7) = F (Proc.devRef .tc main_arg7) :=
  by
  dsimp only [hostOps0_1]
  after_results

theorem a1_main_arg8 (F : Valuation τ sig (Elt Ideal)) : StableHlo.after hostOps0_1 F (Proc.devRef .tc main_arg8) = F (Proc.devRef .tc main_arg8) :=
  by
  dsimp only [hostOps0_1]
  after_results

theorem a1_main_arg9 (F : Valuation τ sig (Elt Ideal)) : StableHlo.after hostOps0_1 F (Proc.devRef .tc main_arg9) = F (Proc.devRef .tc main_arg9) :=
  by
  dsimp only [hostOps0_1]
  after_results

/-- The third lays the factor out as a column. -/
theorem a2_main_v15 (F : Valuation τ sig (Elt Ideal)) : StableHlo.after hostOps0_2 F (Proc.devRef .tc main_v15) = broadcastInDim S50000x1 ![0] bcast_S50000_S50000x1_0 (F (Proc.devRef .tc main_v14)) :=
  by
  dsimp only [hostOps0_2]
  after_results

/-- The same with the factor named. -/
theorem a2_main_v15' (F : Valuation τ sig (Elt Ideal)) (d : FVec Ideal S50000 .f32) (h : F (Proc.devRef .tc main_v14) = d) :
    StableHlo.after hostOps0_2 F (Proc.devRef .tc main_v15) = broadcastInDim S50000x1 ![0] bcast_S50000_S50000x1_0 d := by
  subst h
  exact a2_main_v15 F

theorem a2_main_v3 (F : Valuation τ sig (Elt Ideal)) : StableHlo.after hostOps0_2 F (Proc.devRef .tc main_v3) = F (Proc.devRef .tc main_v3) :=
  by
  dsimp only [hostOps0_2]
  after_results

theorem a2_main_v6 (F : Valuation τ sig (Elt Ideal)) : StableHlo.after hostOps0_2 F (Proc.devRef .tc main_v6) = F (Proc.devRef .tc main_v6) :=
  by
  dsimp only [hostOps0_2]
  after_results

theorem a2_main_arg0 (F : Valuation τ sig (Elt Ideal)) : StableHlo.after hostOps0_2 F (Proc.devRef .tc main_arg0) = F (Proc.devRef .tc main_arg0) :=
  by
  dsimp only [hostOps0_2]
  after_results

theorem a2_main_arg2 (F : Valuation τ sig (Elt Ideal)) : StableHlo.after hostOps0_2 F (Proc.devRef .tc main_arg2) = F (Proc.devRef .tc main_arg2) :=
  by
  dsimp only [hostOps0_2]
  after_results

theorem a2_main_arg3 (F : Valuation τ sig (Elt Ideal)) : StableHlo.after hostOps0_2 F (Proc.devRef .tc main_arg3) = F (Proc.devRef .tc main_arg3) :=
  by
  dsimp only [hostOps0_2]
  after_results

theorem a2_main_arg4 (F : Valuation τ sig (Elt Ideal)) : StableHlo.after hostOps0_2 F (Proc.devRef .tc main_arg4) = F (Proc.devRef .tc main_arg4) :=
  by
  dsimp only [hostOps0_2]
  after_results

theorem a2_main_arg5 (F : Valuation τ sig (Elt Ideal)) : StableHlo.after hostOps0_2 F (Proc.devRef .tc main_arg5) = F (Proc.devRef .tc main_arg5) :=
  by
  dsimp only [hostOps0_2]
  after_results

theorem a2_main_arg6 (F : Valuation τ sig (Elt Ideal)) : StableHlo.after hostOps0_2 F (Proc.devRef .tc main_arg6) = F (Proc.devRef .tc main_arg6) :=
  by
  dsimp only [hostOps0_2]
  after_results

theorem a2_main_arg7 (F : Valuation τ sig (Elt Ideal)) : StableHlo.after hostOps0_2 F (Proc.devRef .tc main_arg7) = F (Proc.devRef .tc main_arg7) :=
  by
  dsimp only [hostOps0_2]
  after_results

theorem a2_main_arg8 (F : Valuation τ sig (Elt Ideal)) : StableHlo.after hostOps0_2 F (Proc.devRef .tc main_arg8) = F (Proc.devRef .tc main_arg8) :=
  by
  dsimp only [hostOps0_2]
  after_results

theorem a2_main_arg9 (F : Valuation τ sig (Elt Ideal)) : StableHlo.after hostOps0_2 F (Proc.devRef .tc main_arg9) = F (Proc.devRef .tc main_arg9) :=
  by
  dsimp only [hostOps0_2]
  after_results

theorem s1_main_v3 (F : Valuation τ sig (Elt Ideal)) : StableHlo.after hostOps1 F (Proc.devRef .tc main_v3) = F (Proc.devRef .tc main_v3) :=
  by
  dsimp only [hostOps1]
  after_results

theorem s1_main_v6 (F : Valuation τ sig (Elt Ideal)) : StableHlo.after hostOps1 F (Proc.devRef .tc main_v6) = F (Proc.devRef .tc main_v6) :=
  by
  dsimp only [hostOps1]
  after_results

theorem s1_main_v15 (F : Valuation τ sig (Elt Ideal)) : StableHlo.after hostOps1 F (Proc.devRef .tc main_v15) = F (Proc.devRef .tc main_v15) :=
  by
  dsimp only [hostOps1]
  after_results

theorem s1_main_arg3 (F : Valuation τ sig (Elt Ideal)) : StableHlo.after hostOps1 F (Proc.devRef .tc main_arg3) = F (Proc.devRef .tc main_arg3) :=
  by
  dsimp only [hostOps1]
  after_results

theorem s1_main_arg4 (F : Valuation τ sig (Elt Ideal)) : StableHlo.after hostOps1 F (Proc.devRef .tc main_arg4) = F (Proc.devRef .tc main_arg4) :=
  by
  dsimp only [hostOps1]
  after_results

theorem s1_main_arg5 (F : Valuation τ sig (Elt Ideal)) : StableHlo.after hostOps1 F (Proc.devRef .tc main_arg5) = F (Proc.devRef .tc main_arg5) :=
  by
  dsimp only [hostOps1]
  after_results

theorem s1_main_arg6 (F : Valuation τ sig (Elt Ideal)) : StableHlo.after hostOps1 F (Proc.devRef .tc main_arg6) = F (Proc.devRef .tc main_arg6) :=
  by
  dsimp only [hostOps1]
  after_results

theorem s1_main_arg7 (F : Valuation τ sig (Elt Ideal)) : StableHlo.after hostOps1 F (Proc.devRef .tc main_arg7) = F (Proc.devRef .tc main_arg7) :=
  by
  dsimp only [hostOps1]
  after_results

theorem s1_main_arg8 (F : Valuation τ sig (Elt Ideal)) : StableHlo.after hostOps1 F (Proc.devRef .tc main_arg8) = F (Proc.devRef .tc main_arg8) :=
  by
  dsimp only [hostOps1]
  after_results

theorem s1_main_arg9 (F : Valuation τ sig (Elt Ideal)) : StableHlo.after hostOps1 F (Proc.devRef .tc main_arg9) = F (Proc.devRef .tc main_arg9) :=
  by
  dsimp only [hostOps1]
  after_results

/-- Stretch 1 gathers region 0's output rows at the sources and adds them into the targets' rows. -/
theorem s1_main_v26 (F : Valuation τ sig (Elt Ideal)) : StableHlo.after hostOps1 F (Proc.devRef .tc main_v26) = aggK (F (Proc.devRef .tc main_v3)) (F (Proc.devRef .tc main_v6)) (F (Proc.devRef .tc main_v16)) :=
  by
  dsimp only [hostOps1]
  after_results
  rfl

theorem s2_main_v3 (F : Valuation τ sig (Elt Ideal)) : StableHlo.after hostOps2 F (Proc.devRef .tc main_v3) = F (Proc.devRef .tc main_v3) :=
  by
  dsimp only [hostOps2]
  after_results

theorem s2_main_v6 (F : Valuation τ sig (Elt Ideal)) : StableHlo.after hostOps2 F (Proc.devRef .tc main_v6) = F (Proc.devRef .tc main_v6) :=
  by
  dsimp only [hostOps2]
  after_results

theorem s2_main_v15 (F : Valuation τ sig (Elt Ideal)) : StableHlo.after hostOps2 F (Proc.devRef .tc main_v15) = F (Proc.devRef .tc main_v15) :=
  by
  dsimp only [hostOps2]
  after_results

theorem s2_main_arg5 (F : Valuation τ sig (Elt Ideal)) : StableHlo.after hostOps2 F (Proc.devRef .tc main_arg5) = F (Proc.devRef .tc main_arg5) :=
  by
  dsimp only [hostOps2]
  after_results

theorem s2_main_arg6 (F : Valuation τ sig (Elt Ideal)) : StableHlo.after hostOps2 F (Proc.devRef .tc main_arg6) = F (Proc.devRef .tc main_arg6) :=
  by
  dsimp only [hostOps2]
  after_results

theorem s2_main_arg7 (F : Valuation τ sig (Elt Ideal)) : StableHlo.after hostOps2 F (Proc.devRef .tc main_arg7) = F (Proc.devRef .tc main_arg7) :=
  by
  dsimp only [hostOps2]
  after_results

theorem s2_main_arg8 (F : Valuation τ sig (Elt Ideal)) : StableHlo.after hostOps2 F (Proc.devRef .tc main_arg8) = F (Proc.devRef .tc main_arg8) :=
  by
  dsimp only [hostOps2]
  after_results

theorem s2_main_arg9 (F : Valuation τ sig (Elt Ideal)) : StableHlo.after hostOps2 F (Proc.devRef .tc main_arg9) = F (Proc.devRef .tc main_arg9) :=
  by
  dsimp only [hostOps2]
  after_results

/-- Stretch 2 gathers region 1's output rows at the sources and adds them into the targets' rows. -/
theorem s2_main_v37 (F : Valuation τ sig (Elt Ideal)) : StableHlo.after hostOps2 F (Proc.devRef .tc main_v37) = aggK (F (Proc.devRef .tc main_v3)) (F (Proc.devRef .tc main_v6)) (F (Proc.devRef .tc main_v27)) :=
  by
  dsimp only [hostOps2]
  after_results
  rfl

theorem s3_main_v3 (F : Valuation τ sig (Elt Ideal)) : StableHlo.after hostOps3 F (Proc.devRef .tc main_v3) = F (Proc.devRef .tc main_v3) :=
  by
  dsimp only [hostOps3]
  after_results

theorem s3_main_v6 (F : Valuation τ sig (Elt Ideal)) : StableHlo.after hostOps3 F (Proc.devRef .tc main_v6) = F (Proc.devRef .tc main_v6) :=
  by
  dsimp only [hostOps3]
  after_results

theorem s3_main_v15 (F : Valuation τ sig (Elt Ideal)) : StableHlo.after hostOps3 F (Proc.devRef .tc main_v15) = F (Proc.devRef .tc main_v15) :=
  by
  dsimp only [hostOps3]
  after_results

theorem s3_main_arg7 (F : Valuation τ sig (Elt Ideal)) : StableHlo.after hostOps3 F (Proc.devRef .tc main_arg7) = F (Proc.devRef .tc main_arg7) :=
  by
  dsimp only [hostOps3]
  after_results

theorem s3_main_arg8 (F : Valuation τ sig (Elt Ideal)) : StableHlo.after hostOps3 F (Proc.devRef .tc main_arg8) = F (Proc.devRef .tc main_arg8) :=
  by
  dsimp only [hostOps3]
  after_results

theorem s3_main_arg9 (F : Valuation τ sig (Elt Ideal)) : StableHlo.after hostOps3 F (Proc.devRef .tc main_arg9) = F (Proc.devRef .tc main_arg9) :=
  by
  dsimp only [hostOps3]
  after_results

/-- Stretch 3 gathers region 2's output rows at the sources and adds them into the targets' rows. -/
theorem s3_main_v48 (F : Valuation τ sig (Elt Ideal)) : StableHlo.after hostOps3 F (Proc.devRef .tc main_v48) = aggK (F (Proc.devRef .tc main_v3)) (F (Proc.devRef .tc main_v6)) (F (Proc.devRef .tc main_v38)) :=
  by
  dsimp only [hostOps3]
  after_results
  rfl

/-- The last stretch drops the readout's unit axis. -/
theorem s4_main_v50 (F : Valuation τ sig (Elt Ideal)) : StableHlo.after hostOps4 F (Proc.devRef .tc main_v50) = shapeCast S50000 (F (Proc.devRef .tc main_v49)) shapeCasts_S50000x1_S50000 :=
  by
  dsimp only [hostOps4]
  after_results
  rfl

/-! ## The boundaries of the run -/

variable (m : (ℓ : Loc nD τ sig) → Buf (Elt Ideal) ℓ) (ρ : Dev nD → PrngReg)

theorem keep3_main_v3 (c : Dev nD) : W3 m ρ c (Proc.devRef .tc main_v3) = Cert.ReferenceIdeal.Read.val_main_v3 (F := Ideal) (m ((c : Thread nD τ).loc main_arg1)) :=
  (a2_main_v3 (W2 m ρ c)).trans ((a1_main_v3 (W1 m ρ c)).trans (a0_main_v3 (W0 m ρ c)))

theorem keep3_main_v6 (c : Dev nD) : W3 m ρ c (Proc.devRef .tc main_v6) = Cert.ReferenceIdeal.Read.val_main_v6 (F := Ideal) (m ((c : Thread nD τ).loc main_arg1)) :=
  (a2_main_v6 (W2 m ρ c)).trans ((a1_main_v6 (W1 m ρ c)).trans (a0_main_v6 (W0 m ρ c)))

theorem keep3_main_arg0 (c : Dev nD) : W3 m ρ c (Proc.devRef .tc main_arg0) = m ((c : Thread nD τ).loc main_arg0) :=
  (a2_main_arg0 (W2 m ρ c)).trans ((a1_main_arg0 (W1 m ρ c)).trans (a0_main_arg0 (W0 m ρ c)))

theorem keep3_main_arg2 (c : Dev nD) : W3 m ρ c (Proc.devRef .tc main_arg2) = m ((c : Thread nD τ).loc main_arg2) :=
  (a2_main_arg2 (W2 m ρ c)).trans ((a1_main_arg2 (W1 m ρ c)).trans (a0_main_arg2 (W0 m ρ c)))

theorem keep3_main_arg3 (c : Dev nD) : W3 m ρ c (Proc.devRef .tc main_arg3) = m ((c : Thread nD τ).loc main_arg3) :=
  (a2_main_arg3 (W2 m ρ c)).trans ((a1_main_arg3 (W1 m ρ c)).trans (a0_main_arg3 (W0 m ρ c)))

theorem keep3_main_arg4 (c : Dev nD) : W3 m ρ c (Proc.devRef .tc main_arg4) = m ((c : Thread nD τ).loc main_arg4) :=
  (a2_main_arg4 (W2 m ρ c)).trans ((a1_main_arg4 (W1 m ρ c)).trans (a0_main_arg4 (W0 m ρ c)))

theorem keep3_main_arg5 (c : Dev nD) : W3 m ρ c (Proc.devRef .tc main_arg5) = m ((c : Thread nD τ).loc main_arg5) :=
  (a2_main_arg5 (W2 m ρ c)).trans ((a1_main_arg5 (W1 m ρ c)).trans (a0_main_arg5 (W0 m ρ c)))

theorem keep3_main_arg6 (c : Dev nD) : W3 m ρ c (Proc.devRef .tc main_arg6) = m ((c : Thread nD τ).loc main_arg6) :=
  (a2_main_arg6 (W2 m ρ c)).trans ((a1_main_arg6 (W1 m ρ c)).trans (a0_main_arg6 (W0 m ρ c)))

theorem keep3_main_arg7 (c : Dev nD) : W3 m ρ c (Proc.devRef .tc main_arg7) = m ((c : Thread nD τ).loc main_arg7) :=
  (a2_main_arg7 (W2 m ρ c)).trans ((a1_main_arg7 (W1 m ρ c)).trans (a0_main_arg7 (W0 m ρ c)))

theorem keep3_main_arg8 (c : Dev nD) : W3 m ρ c (Proc.devRef .tc main_arg8) = m ((c : Thread nD τ).loc main_arg8) :=
  (a2_main_arg8 (W2 m ρ c)).trans ((a1_main_arg8 (W1 m ρ c)).trans (a0_main_arg8 (W0 m ρ c)))

theorem keep3_main_arg9 (c : Dev nD) : W3 m ρ c (Proc.devRef .tc main_arg9) = m ((c : Thread nD τ).loc main_arg9) :=
  (a2_main_arg9 (W2 m ρ c)).trans ((a1_main_arg9 (W1 m ρ c)).trans (a0_main_arg9 (W0 m ρ c)))

/-- The in-degrees at the first boundary, as the reference's stage names them. -/
theorem degree10 (c : Dev nD) : W1 m ρ c (Proc.devRef .tc main_v10) = Cert.ReferenceIdeal.Read.val_main_v10 (F := Ideal) (m ((c : Thread nD τ).loc main_arg1)) :=
  a0_main_v10 (W0 m ρ c)

/-- Where the degree is positive. -/
theorem positive12 (c : Dev nD) : W1 m ρ c (Proc.devRef .tc main_v12) = Cert.ReferenceIdeal.Read.val_main_v12 (F := Ideal) (m ((c : Thread nD τ).loc main_arg1)) :=
  (a0_main_v12 (W0 m ρ c)).trans
    (congrArg (fun z : FVec Ideal S50000 .f32 => cmpf (F := Ideal) .ogt z (broadcastInDim S50000 ![] bcast_S_S50000 (constant S_ .f32 0x00000000#32)))
      (degree10 m ρ c))

/-- Its inverse square root. -/
theorem inverse13 (c : Dev nD) : W1 m ρ c (Proc.devRef .tc main_v13) = Cert.ReferenceIdeal.Read.val_main_v13 (F := Ideal) (m ((c : Thread nD τ).loc main_arg1)) :=
  (a0_main_v13 (W0 m ρ c)).trans (congrArg (fun z : FVec Ideal S50000 .f32 => (Host.rsqrt z : FVec Ideal S50000 .f32)) (degree10 m ρ c))

/-- The node factor at the second boundary, as the reference's stage names it. -/
theorem factor14 (c : Dev nD) : W2 m ρ c (Proc.devRef .tc main_v14) = Cert.ReferenceIdeal.Read.val_main_v14 (F := Ideal) (m ((c : Thread nD τ).loc main_arg1)) :=
  a1_main_v14' (W1 m ρ c) _ _ _ (positive12 m ρ c) (inverse13 m ρ c) (a0_main_cst_2 (W0 m ρ c))

theorem keep3_main_v15 (c : Dev nD) : W3 m ρ c (Proc.devRef .tc main_v15) = factorCol (m ((c : Thread nD τ).loc main_arg1)) := by
  unfold factorCol
  exact a2_main_v15' (W2 m ρ c) _ (factor14 m ρ c)

theorem keep4_main_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (keep3_main_v3 m ρ c)

theorem keep4_main_v6 (c : Dev nD) : W4 m ρ c (Proc.devRef .tc main_v6) = Cert.ReferenceIdeal.Read.val_main_v6 (F := Ideal) (m ((c : Thread nD τ).loc main_arg1)) :=
  (W4_of_ne m ρ c main_v6 (by decide)).trans (keep3_main_v6 m ρ c)

theorem keep4_main_v15 (c : Dev nD) : W4 m ρ c (Proc.devRef .tc main_v15) = factorCol (m ((c : Thread nD τ).loc main_arg1)) :=
  (W4_arr m ρ c 2).trans ((((dat0 (V3 m ρ) c).arrAt_in 2 rfl _).trans (A_eq0 (V3 m ρ) c 2)).trans (keep3_main_v15 m ρ c))

theorem keep4_main_arg3 (c : Dev nD) : W4 m ρ c (Proc.devRef .tc main_arg3) = m ((c : Thread nD τ).loc main_arg3) :=
  (W4_of_ne m ρ c main_arg3 (by decide)).trans (keep3_main_arg3 m ρ c)

theorem keep4_main_arg4 (c : Dev nD) : W4 m ρ c (Proc.devRef .tc main_arg4) = m ((c : Thread nD τ).loc main_arg4) :=
  (W4_of_ne m ρ c main_arg4 (by decide)).trans (keep3_main_arg4 m ρ c)

theorem keep4_main_arg5 (c : Dev nD) : W4 m ρ c (Proc.devRef .tc main_arg5) = m ((c : Thread nD τ).loc main_arg5) :=
  (W4_of_ne m ρ c main_arg5 (by decide)).trans (keep3_main_arg5 m ρ c)

theorem keep4_main_arg6 (c : Dev nD) : W4 m ρ c (Proc.devRef .tc main_arg6) = m ((c : Thread nD τ).loc main_arg6) :=
  (W4_of_ne m ρ c main_arg6 (by decide)).trans (keep3_main_arg6 m ρ c)

theorem keep4_main_arg7 (c : Dev nD) : W4 m ρ c (Proc.devRef .tc main_arg7) = m ((c : Thread nD τ).loc main_arg7) :=
  (W4_of_ne m ρ c main_arg7 (by decide)).trans (keep3_main_arg7 m ρ c)

theorem keep4_main_arg8 (c : Dev nD) : W4 m ρ c (Proc.devRef .tc main_arg8) = m ((c : Thread nD τ).loc main_arg8) :=
  (W4_of_ne m ρ c main_arg8 (by decide)).trans (keep3_main_arg8 m ρ c)

theorem keep4_main_arg9 (c : Dev nD) : W4 m ρ c (Proc.devRef .tc main_arg9) = m ((c : Thread nD τ).loc main_arg9) :=
  (W4_of_ne m ρ c main_arg9 (by decide)).trans (keep3_main_arg9 m ρ c)

/-- Region 0's output after its 25 points. -/
theorem val4_main_v16 (c : Dev nD) : W4 m ρ c (Proc.devRef .tc main_v16) = stage0 (m ((c : Thread nD τ).loc main_arg0)) (m ((c : Thread nD τ).loc main_arg2)) (factorCol (m ((c : Thread nD τ).loc main_arg1))) :=
  (W4_arr m ρ c 3).trans ((Region0.final (V3 m ρ) c).trans (congr (congr (congrArg stage0 (keep3_main_arg0 m ρ c)) (keep3_main_arg2 m ρ c)) (keep3_main_v15 m ρ c)))

theorem keep5_main_v3 (c : Dev nD) : W5 m ρ c (Proc.devRef .tc main_v3) = Cert.ReferenceIdeal.Read.val_main_v3 (F := Ideal) (m ((c : Thread nD τ).loc main_arg1)) :=
  (s1_main_v3 (W4 m ρ c)).trans (keep4_main_v3 m ρ c)

theorem keep5_main_v6 (c : Dev nD) : W5 m ρ c (Proc.devRef .tc main_v6) = Cert.ReferenceIdeal.Read.val_main_v6 (F := Ideal) (m ((c : Thread nD τ).loc main_arg1)) :=
  (s1_main_v6 (W4 m ρ c)).trans (keep4_main_v6 m ρ c)

theorem keep5_main_v15 (c : Dev nD) : W5 m ρ c (Proc.devRef .tc main_v15) = factorCol (m ((c : Thread nD τ).loc main_arg1)) :=
  (s1_main_v15 (W4 m ρ c)).trans (keep4_main_v15 m ρ c)

theorem keep5_main_arg3 (c : Dev nD) : W5 m ρ c (Proc.devRef .tc main_arg3) = m ((c : Thread nD τ).loc main_arg3) :=
  (s1_main_arg3 (W4 m ρ c)).trans (keep4_main_arg3 m ρ c)

theorem keep5_main_arg4 (c : Dev nD) : W5 m ρ c (Proc.devRef .tc main_arg4) = m ((c : Thread nD τ).loc main_arg4) :=
  (s1_main_arg4 (W4 m ρ c)).trans (keep4_main_arg4 m ρ c)

theorem keep5_main_arg5 (c : Dev nD) : W5 m ρ c (Proc.devRef .tc main_arg5) = m ((c : Thread nD τ).loc main_arg5) :=
  (s1_main_arg5 (W4 m ρ c)).trans (keep4_main_arg5 m ρ c)

theorem keep5_main_arg6 (c : Dev nD) : W5 m ρ c (Proc.devRef .tc main_arg6) = m ((c : Thread nD τ).loc main_arg6) :=
  (s1_main_arg6 (W4 m ρ c)).trans (keep4_main_arg6 m ρ c)

theorem keep5_main_arg7 (c : Dev nD) : W5 m ρ c (Proc.devRef .tc main_arg7) = m ((c : Thread nD τ).loc main_arg7) :=
  (s1_main_arg7 (W4 m ρ c)).trans (keep4_main_arg7 m ρ c)

theorem keep5_main_arg8 (c : Dev nD) : W5 m ρ c (Proc.devRef .tc main_arg8) = m ((c : Thread nD τ).loc main_arg8) :=
  (s1_main_arg8 (W4 m ρ c)).trans (keep4_main_arg8 m ρ c)

theorem keep5_main_arg9 (c : Dev nD) : W5 m ρ c (Proc.devRef .tc main_arg9) = m ((c : Thread nD τ).loc main_arg9) :=
  (s1_main_arg9 (W4 m ρ c)).trans (keep4_main_arg9 m ρ c)

/-- The neighbourhood sum of region 0's output. -/
theorem val5_main_v26 (c : Dev nD) : W5 m ρ c (Proc.devRef .tc main_v26) = aggK (Cert.ReferenceIdeal.Read.val_main_v3 (F := Ideal) (m ((c : Thread nD τ).loc main_arg1))) (Cert.ReferenceIdeal.Read.val_main_v6 (F := Ideal) (m ((c : Thread nD τ).loc main_arg1))) (stage0 (m ((c : Thread nD τ).loc main_arg0)) (m ((c : Thread nD τ).loc main_arg2)) (factorCol (m ((c : Thread nD τ).loc main_arg1)))) :=
  (s1_main_v26 (W4 m ρ c)).trans (congr (congr (congrArg aggK (keep4_main_v3 m ρ c)) (keep4_main_v6 m ρ c)) (val4_main_v16 m ρ c))

theorem keep6_main_v3 (c : Dev nD) : W6 m ρ c (Proc.devRef .tc main_v3) = Cert.ReferenceIdeal.Read.val_main_v3 (F := Ideal) (m ((c : Thread nD τ).loc main_arg1)) :=
  (W6_of_ne m ρ c main_v3 (by decide)).trans (keep5_main_v3 m ρ c)

theorem keep6_main_v6 (c : Dev nD) : W6 m ρ c (Proc.devRef .tc main_v6) = Cert.ReferenceIdeal.Read.val_main_v6 (F := Ideal) (m ((c : Thread nD τ).loc main_arg1)) :=
  (W6_of_ne m ρ c main_v6 (by decide)).trans (keep5_main_v6 m ρ c)

theorem keep6_main_v15 (c : Dev nD) : W6 m ρ c (Proc.devRef .tc main_v15) = factorCol (m ((c : Thread nD τ).loc main_arg1)) :=
  (W6_arr m ρ c 1).trans ((((dat1 (V5 m ρ) c).arrAt_in 1 rfl _).trans (A_eq1 (V5 m ρ) c 1)).trans (keep5_main_v15 m ρ c))

theorem keep6_main_arg3 (c : Dev nD) : W6 m ρ c (Proc.devRef .tc main_arg3) = m ((c : Thread nD τ).loc main_arg3) :=
  (W6_arr m ρ c 2).trans ((((dat1 (V5 m ρ) c).arrAt_in 2 rfl _).trans (A_eq1 (V5 m ρ) c 2)).trans (keep5_main_arg3 m ρ c))

theorem keep6_main_arg4 (c : Dev nD) : W6 m ρ c (Proc.devRef .tc main_arg4) = m ((c : Thread nD τ).loc main_arg4) :=
  (W6_arr m ρ c 3).trans ((((dat1 (V5 m ρ) c).arrAt_in 3 rfl _).trans (A_eq1 (V5 m ρ) c 3)).trans (keep5_main_arg4 m ρ c))

theorem keep6_main_arg5 (c : Dev nD) : W6 m ρ c (Proc.devRef .tc main_arg5) = m ((c : Thread nD τ).loc main_arg5) :=
  (W6_of_ne m ρ c main_arg5 (by decide)).trans (keep5_main_arg5 m ρ c)

theorem keep6_main_arg6 (c : Dev nD) : W6 m ρ c (Proc.devRef .tc main_arg6) = m ((c : Thread nD τ).loc main_arg6) :=
  (W6_of_ne m ρ c main_arg6 (by decide)).trans (keep5_main_arg6 m ρ c)

theorem keep6_main_arg7 (c : Dev nD) : W6 m ρ c (Proc.devRef .tc main_arg7) = m ((c : Thread nD τ).loc main_arg7) :=
  (W6_of_ne m ρ c main_arg7 (by decide)).trans (keep5_main_arg7 m ρ c)

theorem keep6_main_arg8 (c : Dev nD) : W6 m ρ c (Proc.devRef .tc main_arg8) = m ((c : Thread nD τ).loc main_arg8) :=
  (W6_of_ne m ρ c main_arg8 (by decide)).trans (keep5_main_arg8 m ρ c)

theorem keep6_main_arg9 (c : Dev nD) : W6 m ρ c (Proc.devRef .tc main_arg9) = m ((c : Thread nD τ).loc main_arg9) :=
  (W6_of_ne m ρ c main_arg9 (by decide)).trans (keep5_main_arg9 m ρ c)

/-- Region 1's output after its 25 points. -/
theorem val6_main_v27 (c : Dev nD) : W6 m ρ c (Proc.devRef .tc main_v27) = stageL (aggK (Cert.ReferenceIdeal.Read.val_main_v3 (F := Ideal) (m ((c : Thread nD τ).loc main_arg1))) (Cert.ReferenceIdeal.Read.val_main_v6 (F := Ideal) (m ((c : Thread nD τ).loc main_arg1))) (stage0 (m ((c : Thread nD τ).loc main_arg0)) (m ((c : Thread nD τ).loc main_arg2)) (factorCol (m ((c : Thread nD τ).loc main_arg1))))) (factorCol (m ((c : Thread nD τ).loc main_arg1))) (m ((c : Thread nD τ).loc main_arg3)) (m ((c : Thread nD τ).loc main_arg4)) :=
  (W6_arr m ρ c 4).trans ((Region1.final (V5 m ρ) c).trans (congr (congr (congr (congrArg stageL (val5_main_v26 m ρ c)) (keep5_main_v15 m ρ c)) (keep5_main_arg3 m ρ c)) (keep5_main_arg4 m ρ c)))

theorem keep7_main_v3 (c : Dev nD) : W7 m ρ c (Proc.devRef .tc main_v3) = Cert.ReferenceIdeal.Read.val_main_v3 (F := Ideal) (m ((c : Thread nD τ).loc main_arg1)) :=
  (s2_main_v3 (W6 m ρ c)).trans (keep6_main_v3 m ρ c)

theorem keep7_main_v6 (c : Dev nD) : W7 m ρ c (Proc.devRef .tc main_v6) = Cert.ReferenceIdeal.Read.val_main_v6 (F := Ideal) (m ((c : Thread nD τ).loc main_arg1)) :=
  (s2_main_v6 (W6 m ρ c)).trans (keep6_main_v6 m ρ c)

theorem keep7_main_v15 (c : Dev nD) : W7 m ρ c (Proc.devRef .tc main_v15) = factorCol (m ((c : Thread nD τ).loc main_arg1)) :=
  (s2_main_v15 (W6 m ρ c)).trans (keep6_main_v15 m ρ c)

theorem keep7_main_arg5 (c : Dev nD) : W7 m ρ c (Proc.devRef .tc main_arg5) = m ((c : Thread nD τ).loc main_arg5) :=
  (s2_main_arg5 (W6 m ρ c)).trans (keep6_main_arg5 m ρ c)

theorem keep7_main_arg6 (c : Dev nD) : W7 m ρ c (Proc.devRef .tc main_arg6) = m ((c : Thread nD τ).loc main_arg6) :=
  (s2_main_arg6 (W6 m ρ c)).trans (keep6_main_arg6 m ρ c)

theorem keep7_main_arg7 (c : Dev nD) : W7 m ρ c (Proc.devRef .tc main_arg7) = m ((c : Thread nD τ).loc main_arg7) :=
  (s2_main_arg7 (W6 m ρ c)).trans (keep6_main_arg7 m ρ c)

theorem keep7_main_arg8 (c : Dev nD) : W7 m ρ c (Proc.devRef .tc main_arg8) = m ((c : Thread nD τ).loc main_arg8) :=
  (s2_main_arg8 (W6 m ρ c)).trans (keep6_main_arg8 m ρ c)

theorem keep7_main_arg9 (c : Dev nD) : W7 m ρ c (Proc.devRef .tc main_arg9) = m ((c : Thread nD τ).loc main_arg9) :=
  (s2_main_arg9 (W6 m ρ c)).trans (keep6_main_arg9 m ρ c)

/-- The neighbourhood sum of region 1's output. -/
theorem val7_main_v37 (c : Dev nD) : W7 m ρ c (Proc.devRef .tc main_v37) = aggK (Cert.ReferenceIdeal.Read.val_main_v3 (F := Ideal) (m ((c : Thread nD τ).loc main_arg1))) (Cert.ReferenceIdeal.Read.val_main_v6 (F := Ideal) (m ((c : Thread nD τ).loc main_arg1))) (stageL (aggK (Cert.ReferenceIdeal.Read.val_main_v3 (F := Ideal) (m ((c : Thread nD τ).loc main_arg1))) (Cert.ReferenceIdeal.Read.val_main_v6 (F := Ideal) (m ((c : Thread nD τ).loc main_arg1))) (stage0 (m ((c : Thread nD τ).loc main_arg0)) (m ((c : Thread nD τ).loc main_arg2)) (factorCol (m ((c : Thread nD τ).loc main_arg1))))) (factorCol (m ((c : Thread nD τ).loc main_arg1))) (m ((c : Thread nD τ).loc main_arg3)) (m ((c : Thread nD τ).loc main_arg4))) :=
  (s2_main_v37 (W6 m ρ c)).trans (congr (congr (congrArg aggK (keep6_main_v3 m ρ c)) (keep6_main_v6 m ρ c)) (val6_main_v27 m ρ c))

theorem keep8_main_v3 (c : Dev nD) : W8 m ρ c (Proc.devRef .tc main_v3) = Cert.ReferenceIdeal.Read.val_main_v3 (F := Ideal) (m ((c : Thread nD τ).loc main_arg1)) :=
  (W8_of_ne m ρ c main_v3 (by decide)).trans (keep7_main_v3 m ρ c)

theorem keep8_main_v6 (c : Dev nD) : W8 m ρ c (Proc.devRef .tc main_v6) = Cert.ReferenceIdeal.Read.val_main_v6 (F := Ideal) (m ((c : Thread nD τ).loc main_arg1)) :=
  (W8_of_ne m ρ c main_v6 (by decide)).trans (keep7_main_v6 m ρ c)

theorem keep8_main_v15 (c : Dev nD) : W8 m ρ c (Proc.devRef .tc main_v15) = factorCol (m ((c : Thread nD τ).loc main_arg1)) :=
  (W8_arr m ρ c 1).trans ((((dat2 (V7 m ρ) c).arrAt_in 1 rfl _).trans (A_eq2 (V7 m ρ) c 1)).trans (keep7_main_v15 m ρ c))

theorem keep8_main_arg5 (c : Dev nD) : W8 m ρ c (Proc.devRef .tc main_arg5) = m ((c : Thread nD τ).loc main_arg5) :=
  (W8_arr m ρ c 2).trans ((((dat2 (V7 m ρ) c).arrAt_in 2 rfl _).trans (A_eq2 (V7 m ρ) c 2)).trans (keep7_main_arg5 m ρ c))

theorem keep8_main_arg6 (c : Dev nD) : W8 m ρ c (Proc.devRef .tc main_arg6) = m ((c : Thread nD τ).loc main_arg6) :=
  (W8_arr m ρ c 3).trans ((((dat2 (V7 m ρ) c).arrAt_in 3 rfl _).trans (A_eq2 (V7 m ρ) c 3)).trans (keep7_main_arg6 m ρ c))

theorem keep8_main_arg7 (c : Dev nD) : W8 m ρ c (Proc.devRef .tc main_arg7) = m ((c : Thread nD τ).loc main_arg7) :=
  (W8_of_ne m ρ c main_arg7 (by decide)).trans (keep7_main_arg7 m ρ c)

theorem keep8_main_arg8 (c : Dev nD) : W8 m ρ c (Proc.devRef .tc main_arg8) = m ((c : Thread nD τ).loc main_arg8) :=
  (W8_of_ne m ρ c main_arg8 (by decide)).trans (keep7_main_arg8 m ρ c)

theorem keep8_main_arg9 (c : Dev nD) : W8 m ρ c (Proc.devRef .tc main_arg9) = m ((c : Thread nD τ).loc main_arg9) :=
  (W8_of_ne m ρ c main_arg9 (by decide)).trans (keep7_main_arg9 m ρ c)

/-- Region 2's output after its 25 points. -/
theorem val8_main_v38 (c : Dev nD) : W8 m ρ c (Proc.devRef .tc main_v38) = stageL (aggK (Cert.ReferenceIdeal.Read.val_main_v3 (F := Ideal) (m ((c : Thread nD τ).loc main_arg1))) (Cert.ReferenceIdeal.Read.val_main_v6 (F := Ideal) (m ((c : Thread nD τ).loc main_arg1))) (stageL (aggK (Cert.ReferenceIdeal.Read.val_main_v3 (F := Ideal) (m ((c : Thread nD τ).loc main_arg1))) (Cert.ReferenceIdeal.Read.val_main_v6 (F := Ideal) (m ((c : Thread nD τ).loc main_arg1))) (stage0 (m ((c : Thread nD τ).loc main_arg0)) (m ((c : Thread nD τ).loc main_arg2)) (factorCol (m ((c : Thread nD τ).loc main_arg1))))) (factorCol (m ((c : Thread nD τ).loc main_arg1))) (m ((c : Thread nD τ).loc main_arg3)) (m ((c : Thread nD τ).loc main_arg4)))) (factorCol (m ((c : Thread nD τ).loc main_arg1))) (m ((c : Thread nD τ).loc main_arg5)) (m ((c : Thread nD τ).loc main_arg6)) :=
  (W8_arr m ρ c 4).trans ((Region2.final (V7 m ρ) c).trans (congr (congr (congr (congrArg stageL (val7_main_v37 m ρ c)) (keep7_main_v15 m ρ c)) (keep7_main_arg5 m ρ c)) (keep7_main_arg6 m ρ c)))

theorem keep9_main_v3 (c : Dev nD) : W9 m ρ c (Proc.devRef .tc main_v3) = Cert.ReferenceIdeal.Read.val_main_v3 (F := Ideal) (m ((c : Thread nD τ).loc main_arg1)) :=
  (s3_main_v3 (W8 m ρ c)).trans (keep8_main_v3 m ρ c)

theorem keep9_main_v6 (c : Dev nD) : W9 m ρ c (Proc.devRef .tc main_v6) = Cert.ReferenceIdeal.Read.val_main_v6 (F := Ideal) (m ((c : Thread nD τ).loc main_arg1)) :=
  (s3_main_v6 (W8 m ρ c)).trans (keep8_main_v6 m ρ c)

theorem keep9_main_v15 (c : Dev nD) : W9 m ρ c (Proc.devRef .tc main_v15) = factorCol (m ((c : Thread nD τ).loc main_arg1)) :=
  (s3_main_v15 (W8 m ρ c)).trans (keep8_main_v15 m ρ c)

theorem keep9_main_arg7 (c : Dev nD) : W9 m ρ c (Proc.devRef .tc main_arg7) = m ((c : Thread nD τ).loc main_arg7) :=
  (s3_main_arg7 (W8 m ρ c)).trans (keep8_main_arg7 m ρ c)

theorem keep9_main_arg8 (c : Dev nD) : W9 m ρ c (Proc.devRef .tc main_arg8) = m ((c : Thread nD τ).loc main_arg8) :=
  (s3_main_arg8 (W8 m ρ c)).trans (keep8_main_arg8 m ρ c)

theorem keep9_main_arg9 (c : Dev nD) : W9 m ρ c (Proc.devRef .tc main_arg9) = m ((c : Thread nD τ).loc main_arg9) :=
  (s3_main_arg9 (W8 m ρ c)).trans (keep8_main_arg9 m ρ c)

/-- The neighbourhood sum of region 2's output. -/
theorem val9_main_v48 (c : Dev nD) : W9 m ρ c (Proc.devRef .tc main_v48) = aggK (Cert.ReferenceIdeal.Read.val_main_v3 (F := Ideal) (m ((c : Thread nD τ).loc main_arg1))) (Cert.ReferenceIdeal.Read.val_main_v6 (F := Ideal) (m ((c : Thread nD τ).loc main_arg1))) (stageL (aggK (Cert.ReferenceIdeal.Read.val_main_v3 (F := Ideal) (m ((c : Thread nD τ).loc main_arg1))) (Cert.ReferenceIdeal.Read.val_main_v6 (F := Ideal) (m ((c : Thread nD τ).loc main_arg1))) (stageL (aggK (Cert.ReferenceIdeal.Read.val_main_v3 (F := Ideal) (m ((c : Thread nD τ).loc main_arg1))) (Cert.ReferenceIdeal.Read.val_main_v6 (F := Ideal) (m ((c : Thread nD τ).loc main_arg1))) (stage0 (m ((c : Thread nD τ).loc main_arg0)) (m ((c : Thread nD τ).loc main_arg2)) (factorCol (m ((c : Thread nD τ).loc main_arg1))))) (factorCol (m ((c : Thread nD τ).loc main_arg1))) (m ((c : Thread nD τ).loc main_arg3)) (m ((c : Thread nD τ).loc main_arg4)))) (factorCol (m ((c : Thread nD τ).loc main_arg1))) (m ((c : Thread nD τ).loc main_arg5)) (m ((c : Thread nD τ).loc main_arg6))) :=
  (s3_main_v48 (W8 m ρ c)).trans (congr (congr (congrArg aggK (keep8_main_v3 m ρ c)) (keep8_main_v6 m ρ c)) (val8_main_v38 m ρ c))

theorem keep10_main_v3 (c : Dev nD) : W10 m ρ c (Proc.devRef .tc main_v3) = Cert.ReferenceIdeal.Read.val_main_v3 (F := Ideal) (m ((c : Thread nD τ).loc main_arg1)) :=
  (W10_of_ne m ρ c main_v3 (by decide)).trans (keep9_main_v3 m ρ c)

theorem keep10_main_v6 (c : Dev nD) : W10 m ρ c (Proc.devRef .tc main_v6) = Cert.ReferenceIdeal.Read.val_main_v6 (F := Ideal) (m ((c : Thread nD τ).loc main_arg1)) :=
  (W10_of_ne m ρ c main_v6 (by decide)).trans (keep9_main_v6 m ρ c)

theorem keep10_main_v15 (c : Dev nD) : W10 m ρ c (Proc.devRef .tc main_v15) = factorCol (m ((c : Thread nD τ).loc main_arg1)) :=
  (W10_arr m ρ c 1).trans ((((dat3 (V9 m ρ) c).arrAt_in 1 rfl _).trans (A_eq3 (V9 m ρ) c 1)).trans (keep9_main_v15 m ρ c))

theorem keep10_main_arg7 (c : Dev nD) : W10 m ρ c (Proc.devRef .tc main_arg7) = m ((c : Thread nD τ).loc main_arg7) :=
  (W10_arr m ρ c 2).trans ((((dat3 (V9 m ρ) c).arrAt_in 2 rfl _).trans (A_eq3 (V9 m ρ) c 2)).trans (keep9_main_arg7 m ρ c))

theorem keep10_main_arg8 (c : Dev nD) : W10 m ρ c (Proc.devRef .tc main_arg8) = m ((c : Thread nD τ).loc main_arg8) :=
  (W10_arr m ρ c 3).trans ((((dat3 (V9 m ρ) c).arrAt_in 3 rfl _).trans (A_eq3 (V9 m ρ) c 3)).trans (keep9_main_arg8 m ρ c))

theorem keep10_main_arg9 (c : Dev nD) : W10 m ρ c (Proc.devRef .tc main_arg9) = m ((c : Thread nD τ).loc main_arg9) :=
  (W10_arr m ρ c 4).trans ((((dat3 (V9 m ρ) c).arrAt_in 4 rfl _).trans (A_eq3 (V9 m ρ) c 4)).trans (keep9_main_arg9 m ρ c))

/-- Region 3's output after its 25 points. -/
theorem val10_main_v49 (c : Dev nD) : W10 m ρ c (Proc.devRef .tc main_v49) = stageOut (aggK (Cert.ReferenceIdeal.Read.val_main_v3 (F := Ideal) (m ((c : Thread nD τ).loc main_arg1))) (Cert.ReferenceIdeal.Read.val_main_v6 (F := Ideal) (m ((c : Thread nD τ).loc main_arg1))) (stageL (aggK (Cert.ReferenceIdeal.Read.val_main_v3 (F := Ideal) (m ((c : Thread nD τ).loc main_arg1))) (Cert.ReferenceIdeal.Read.val_main_v6 (F := Ideal) (m ((c : Thread nD τ).loc main_arg1))) (stageL (aggK (Cert.ReferenceIdeal.Read.val_main_v3 (F := Ideal) (m ((c : Thread nD τ).loc main_arg1))) (Cert.ReferenceIdeal.Read.val_main_v6 (F := Ideal) (m ((c : Thread nD τ).loc main_arg1))) (stage0 (m ((c : Thread nD τ).loc main_arg0)) (m ((c : Thread nD τ).loc main_arg2)) (factorCol (m ((c : Thread nD τ).loc main_arg1))))) (factorCol (m ((c : Thread nD τ).loc main_arg1))) (m ((c : Thread nD τ).loc main_arg3)) (m ((c : Thread nD τ).loc main_arg4)))) (factorCol (m ((c : Thread nD τ).loc main_arg1))) (m ((c : Thread nD τ).loc main_arg5)) (m ((c : Thread nD τ).loc main_arg6)))) (factorCol (m ((c : Thread nD τ).loc main_arg1))) (m ((c : Thread nD τ).loc main_arg7)) (m ((c : Thread nD τ).loc main_arg8)) (m ((c : Thread nD τ).loc main_arg9)) :=
  (W10_arr m ρ c 5).trans ((Region3.final (V9 m ρ) c).trans (congr (congr (congr (congr (congrArg stageOut (val9_main_v48 m ρ c)) (keep9_main_v15 m ρ c)) (keep9_main_arg7 m ρ c)) (keep9_main_arg8 m ρ c)) (keep9_main_arg9 m ρ c)))

/-- THE RESULT BUFFER at the last boundary is `kernelResult` of the launch contents of the ten arguments. -/
theorem result_eq (c : Dev nD) : W11 m ρ c (Proc.devRef .tc main_v50) = kernelResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (s4_main_v50 (W10 m ρ c)).trans (congrArg (fun y => shapeCast S50000 y shapeCasts_S50000x1_S50000) (val10_main_v49 m ρ c))

end Cert.Gcn.KFold

end
-- ==== Proof.LawFactor.lean ====
/-
  The node factor and the index columns of the graph convolution.

  The factor of a node — `0`, or the inverse square root of a positive in-degree — is nonnegative and finite at every
  node (`factor_bounds`); an edge whose raw target is the node `p` reads, through the wrapped and clamped target column,
  the factor of `p` (`target_reads`); the table the sums start from is zero (`zeros_apply`).
-/
import proofs.«141591_j20212116095606_2_alg».proof.Proof.RefRead
import Idealize.ShloMosaic.Lib.ValueIdx
import Idealize.ShloMosaic.PureOps.Ideal.Laws

noncomputable section

namespace Cert.Gcn.Law

open Idealize.ShloMosaic Idealize.ShloMosaic.ValueIdx
open Cert.ReferenceIdeal Cert.ReferenceIdeal.Gen Cert.ReferenceIdeal.Read

/-! ## The node factor is nonnegative and finite -/

/-- The inverse square root of a positive extended real is a nonnegative real (`0` at `+∞`). -/
theorem rsqrt_bounds (a : EReal) (h : 0 < a) : 0 ≤ Ideal.rsqrt a ∧ Ideal.rsqrt a ≠ ⊤ := by
  induction a using EReal.rec with
  | bot => exact absurd h (not_lt.mpr bot_le)
  | top => rw [Ideal.rsqrt_top]; exact ⟨le_refl _, EReal.zero_ne_top⟩
  | coe r =>
    have hr : 0 < r := EReal.coe_pos.mp h
    rw [Ideal.rsqrt_coe, if_neg (not_lt.mpr hr.le), if_neg hr.ne']
    exact ⟨EReal.coe_nonneg.mpr (inv_nonneg.mpr (Real.sqrt_nonneg r)), EReal.coe_ne_top _⟩

/-- The node factor — the inverse square root of the in-degree where that is positive, else `0` — is nonnegative and
    finite at every node, whatever the degree. -/
theorem factor_bounds (x1 : IVec S2x800000 32) (i : S50000.Idx) :
    0 ≤ val_main_v14 (F := Ideal) x1 i ∧ val_main_v14 (F := Ideal) x1 i ≠ ⊤ := by
  rw [val_main_v14_apply, val_main_v12_apply, val_main_v13_apply, val_main_call0_v1_apply, val_main_call0_v0_apply,
    val_main_cst_2_apply, val_main_v11_apply, val_main_cst_1_apply]
  generalize val_main_v10 (F := Ideal) x1 i = a
  show 0 ≤ Scalar.select (Ideal.cmp .ogt a (Ideal.ofBits .f32 0x00000000#32)) (Ideal.rsqrt a) (Ideal.ofBits .f32 0x00000000#32)
    ∧ Scalar.select (Ideal.cmp .ogt a (Ideal.ofBits .f32 0x00000000#32)) (Ideal.rsqrt a) (Ideal.ofBits .f32 0x00000000#32) ≠ ⊤
  rw [Ideal.ofBits_zero_f32]
  by_cases h : (0 : EReal) < a
  · have hc : Ideal.cmp .ogt a 0 = 1#1 := by simp [Ideal.cmp, h]
    rw [hc, select_one]
    exact rsqrt_bounds a h
  · have hc : Ideal.cmp .ogt a 0 = 0#1 := by simp [Ideal.cmp, h]
    rw [hc, select_zero]
    exact ⟨le_refl 0, EReal.zero_ne_top⟩

/-! ## The index columns -/

theorem idx1_col (e : Fin 850000) : (fun a => match a with | ⟨0, _⟩ => ⟨((ix2 e (0 : Fin 1) : S850000x1.Idx) 0).val, ((ix2 e (0 : Fin 1) : S850000x1.Idx) 0).isLt⟩ : S850000.Idx) = ix1 e :=
  funext fun a => by match a with | ⟨0, _⟩ => rfl

/-- An edge whose raw target is the node `p` reads, through the wrapped and clamped target column, the factor of `p`:
    a target in `[0, 50000)` is not negative, so it is not wrapped, and it is below the clamp. -/
theorem target_reads (x1 : IVec S2x800000 32) (e : Fin 850000) (p : Fin 50000)
    (hp : (val_main_v42 (F := Ideal) x1 (ix2 e (0 : Fin 1))).toInt = (p.val : Int)) :
    min (val_main_v27 (F := Ideal) x1 (ix2 e (0 : Fin 1))).toInt.toNat (50000 - 1) = p.val := by
  rw [val_main_v42_apply] at hp
  rw [val_main_v27_apply, val_main_v26_apply, val_main_v23_apply, val_main_v22_apply, val_main_c_4_apply]
  have hi : idx_main_v27 (ix2 e (0 : Fin 1)) = idx_main_v42 (ix2 e (0 : Fin 1)) := rfl
  rw [hi]
  generalize val_main_v6 (F := Ideal) x1 (idx_main_v42 (ix2 e (0 : Fin 1))) = t at hp ⊢
  have hlt : p.val < 50000 := p.isLt
  have hns : IntOp.cmpi .slt t 0#32 = 0#1 := by
    show BitVec.ofBool (t.slt 0#32) = 0#1
    have : t.slt 0#32 = false := by
      rw [BitVec.slt]
      simp only [BitVec.toInt_zero, decide_eq_false_iff_not, not_lt]
      omega
    rw [this]; rfl
  rw [hns, select_zero, hp]
  simp only [Int.toNat_natCast]
  omega

/-- The zero table the sums start from. -/
theorem zeros_apply (i : S50000x256.Idx) : val_main_v41 (F := Ideal) i = 0 := by
  rw [val_main_v41_apply, val_main_cst_8_apply]
  exact Ideal.ofBits_zero_f32

end Cert.Gcn.Law

end
-- ==== Proof.LibRowGatherScatter.lean ====
/-
  GENERAL LEMMAS — a row gather, an entry gather and a row scatter's landing index, read at indices given by
  coordinates.

  * `rowGatherDims` / `gather_rows_apply`: `x[idx]` of a table `x : [N, K]` at a column of start indices
    `idx : [E, 1]` (offset axis 1, collapsed axis 0, start index map `[0]`, slice sizes `[1, K]`, index vector axis 1).
    Result element `(e, f)` is `x` at row `idx[e, 0]`, read as a signed integer and clamped into `[0, N − 1]`, column `f`.
  * `entryGatherDims` / `gather_entries_apply`: the same for a flat array `x : [N]` (no offset axis, slice sizes `[1]`):
    result element `e` is `x` at `idx[e, 0]`, read signed and clamped into `[0, N − 1]`.
  * `rowScatterDims` / `scatter_rows_resultIdx?_eq_some_iff`: a scatter of rows `[E, K]` into a table `[N, K]` at a
    column of scatter indices `[E, 1]` (update window axis 1, inserted window axis 0, scatter-dims-to-operand-dims `[0]`,
    index vector axis 1). Update element `(e, f)` lands at row `idx[e, 0]`, read as a signed integer and NOT clamped,
    column `f`; it is dropped when that row is outside `[0, N)`.
  * `entryScatterDims` / `scatter_entries_resultIdx?_eq_some_iff`: the same for a flat array `[N]` and updates `[E]` (no
    window axis): update `e` lands at `idx[e, 0]`, read signed and not clamped, and is dropped outside `[0, N)`.
-/
import Idealize.ShloMosaic.Lib.Pipeline.Value
import Idealize.ShloMosaic.Lib.ValueIdx

noncomputable section

namespace Idealize.ShloMosaic.ValueIdx

open Idealize.ShloMosaic

/-! ## A row gather `x[idx]` of a table `[N, K]` at start indices `[E, 1]` -/

section RowGather
variable {α : Type}

/-- The dimension numbers of a row gather: operand `[N, K]`, start indices `[E, 1]`, result `[E, K]`; the result's
    axis 1 is the offset axis (it runs over a whole row, slice sizes `[1, K]`), the operand's axis 0 is collapsed and is
    the one the start index names, and the index vector lies along the start indices' axis 1 (of size 1). Their
    conditions `wf` are decided on a program's literal shapes. -/
abbrev rowGatherDims (N E K : ℕ)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(e, f)`: the operand at row `idx[e, 0]` — read as a signed integer and clamped into
    `[0, N − 1]` — and column `f`. On axis 0 the operand index is the clamped start (no batching, the axis is collapsed);
    on axis 1 the start is `0` (the start index map does not name it) and the offset coordinate is the result's column. -/
theorem gather_rows_apply {N E K w : ℕ} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (f : Fin K) :
    Host.gather (rowGatherDims N E K wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N E K wf).start (ix2 e f) idx 0 + (rowGatherDims N E K wf).batchCoord (ix2 e f) 0
      + (rowGatherDims N E K wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E K wf).startIndexMap from List.mem_singleton.mpr rfl)]
    have hsi : (rowGatherDims N E K wf).siIdx (ix2 e f) ⟨List.idxOf (0 : Fin 2) (rowGatherDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E K wf).start (ix2 e f) idx 1 + (rowGatherDims N E K wf).batchCoord (ix2 e f) 1
      + (rowGatherDims N E K wf).offCoord (ix2 e f) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

end RowGather

/-! ## An entry gather `x[idx]` of a flat array `[N]` at start indices `[E, 1]` -/

section EntryGather
variable {α : Type}

/-- The dimension numbers of an entry gather: operand `[N]`, start indices `[E, 1]`, result `[E]`; no offset axis, the
    operand's one axis collapsed and named by the start index (slice sizes `[1]`), the index vector along the start
    indices' axis 1 (of size 1). Their conditions `wf` are decided on a program's literal shapes. -/
abbrev entryGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at `idx[e, 0]`, read as a signed integer and clamped into `[0, N − 1]`. -/
theorem gather_entries_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (entryGatherDims N E wf).start (ix1 e) idx 0 + (entryGatherDims N E wf).batchCoord (ix1 e) 0
    + (entryGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGatherDims N E wf).startIndexMap from List.mem_singleton.mpr rfl)]
  have hsi : (entryGatherDims N E wf).siIdx (ix1 e) ⟨List.idxOf (0 : Fin 1) (entryGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EntryGather

/-! ## A row scatter of updates `[E, K]` into a table `[N, K]` at scatter indices `[E, 1]`: where an update lands -/

section RowScatter

/-- The dimension numbers of a row scatter: operand `[N, K]`, scatter indices `[E, 1]`, updates `[E, K]`; the updates'
    axis 1 is the window axis (it goes to the operand's axis 1), the operand's axis 0 is the inserted window axis and
    the one the scatter index names, and the index vector lies along the scatter indices' axis 1 (of size 1). Their
    conditions `wf` are decided on a program's literal shapes. -/
abbrev rowScatterDims (N E K : ℕ)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- On the operand's axis 0 the window of update `(e, f)` starts at the scatter index `idx[e, 0]`, read as a signed
    integer. -/
theorem rowScatter_start_zero {N E K w : ℕ}
    (wf : ScatterDims.WF ⟨2, ![N, K]⟩ ⟨2, ![E, 1]⟩ ⟨2, ![E, K]⟩ [1] [0] [0] 1)
    (idx : IVec ⟨2, ![E, 1]⟩ w) (e : Fin E) (f : Fin K) :
    (rowScatterDims N E K wf).start (ix2 e f) idx 0 = (idx (ix2 e (0 : Fin 1))).toInt := by
  unfold ScatterDims.start
  rw [dif_pos (show (0 : Fin 2) ∈ (rowScatterDims N E K wf).scatterDimsToOperandDims from List.mem_singleton.mpr rfl)]
  have hsi : (rowScatterDims N E K wf).siIdx (ix2 e f) ⟨List.idxOf (0 : Fin 2) (rowScatterDims N E K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start_one {N E K w : ℕ}
    (wf : ScatterDims.WF ⟨2, ![N, K]⟩ ⟨2, ![E, 1]⟩ ⟨2, ![E, K]⟩ [1] [0] [0] 1)
    (idx : IVec ⟨2, ![E, 1]⟩ w) (e : Fin E) (f : Fin K) :
    (rowScatterDims N E K wf).start (ix2 e f) idx 1 = 0 := by
  unfold ScatterDims.start
  rw [dif_neg (show (1 : Fin 2) ∉ ([0] : List (Fin 2)) by decide)]

/-- On the operand's axis 0, an inserted window axis, the window coordinate is `0`. -/
theorem rowScatter_window_zero {N E K : ℕ}
    (wf : ScatterDims.WF ⟨2, ![N, K]⟩ ⟨2, ![E, 1]⟩ ⟨2, ![E, K]⟩ [1] [0] [0] 1) (e : Fin E) (f : Fin K) :
    (rowScatterDims N E K wf).window (ix2 e f) 0 = 0 := by
  unfold ScatterDims.window
  rw [dif_neg (show (0 : Fin 2) ∉ (⟨2, ![N, K]⟩ : Shape).kept ([0] : List (Fin 2)) by
    simp [Shape.kept, List.mem_filter, List.mem_finRange])]

/-- On the operand's axis 1 the window coordinate of update `(e, f)` is its column `f`. -/
theorem rowScatter_window_one {N E K : ℕ}
    (wf : ScatterDims.WF ⟨2, ![N, K]⟩ ⟨2, ![E, 1]⟩ ⟨2, ![E, K]⟩ [1] [0] [0] 1) (e : Fin E) (f : Fin K) :
    (rowScatterDims N E K wf).window (ix2 e f) 1 = f.val := by
  unfold ScatterDims.window
  rw [dif_pos (show (1 : Fin 2) ∈ (⟨2, ![N, K]⟩ : Shape).kept ([0] : List (Fin 2)) by
    simp [Shape.kept, List.mem_filter, List.mem_finRange])]
  rfl

/-- WHERE A ROW SCATTER'S UPDATE LANDS: update `(e, f)` lands at `(p, q)` exactly when the scatter index `idx[e, 0]`,
    read as a SIGNED integer and not clamped, is `p`, and the column is kept, `f = q`. (So an update whose row is outside
    `[0, N)` lands nowhere: it is dropped.) -/
theorem scatter_rows_resultIdx?_eq_some_iff {N E K w : ℕ}
    (wf : ScatterDims.WF ⟨2, ![N, K]⟩ ⟨2, ![E, 1]⟩ ⟨2, ![E, K]⟩ [1] [0] [0] 1)
    (idx : IVec ⟨2, ![E, 1]⟩ w) (e : Fin E) (f : Fin K) (p : Fin N) (q : Fin K) :
    (rowScatterDims N E K wf).resultIdx? (ix2 e f) idx = some (ix2 p q)
      ↔ (idx (ix2 e (0 : Fin 1))).toInt = (p.val : Int) ∧ f = q := by
  have h0 := rowScatter_start_zero wf idx e f
  have h1 := rowScatter_start_one wf idx e f
  have g0 := rowScatter_window_zero wf e f
  have g1 := rowScatter_window_one wf e f
  unfold ScatterDims.resultIdx?
  split
  · rename_i h
    rw [Option.some.injEq]
    constructor
    · intro hg
      have c0 := congrArg (fun g => (g 0).val) hg
      have c1 := congrArg (fun g => (g 1).val) hg
      have b0 := h 0
      simp only [h0, g0] at c0 b0
      simp only [h1, g1] at c1
      refine ⟨?_, Fin.ext ?_⟩
      · have : ((idx (ix2 e (0 : Fin 1))).toInt + ((0 : ℕ) : Int)).toNat = p.val := c0
        omega
      · have : ((0 : Int) + (f.val : Int)).toNat = q.val := c1
        omega
    · rintro ⟨hz, rfl⟩
      funext a
      refine Fin.ext ?_
      match a with
      | ⟨0, _⟩ =>
        show ((rowScatterDims N E K wf).start (ix2 e f) idx 0 + ((rowScatterDims N E K wf).window (ix2 e f) 0 : Int)).toNat = p.val
        rw [h0, g0, hz]; simp
      | ⟨1, _⟩ =>
        show ((rowScatterDims N E K wf).start (ix2 e f) idx 1 + ((rowScatterDims N E K wf).window (ix2 e f) 1 : Int)).toNat = f.val
        rw [h1, g1]; simp
  · rename_i h
    constructor
    · intro hc; exact absurd hc (by simp)
    · rintro ⟨hz, rfl⟩
      exfalso; apply h
      intro a
      match a with
      | ⟨0, _⟩ =>
        show 0 ≤ (rowScatterDims N E K wf).start (ix2 e f) idx 0 + ((rowScatterDims N E K wf).window (ix2 e f) 0 : Int)
          ∧ (rowScatterDims N E K wf).start (ix2 e f) idx 0 + ((rowScatterDims N E K wf).window (ix2 e f) 0 : Int) < (N : Int)
        rw [h0, g0, hz]
        have := p.isLt
        omega
      | ⟨1, _⟩ =>
        show 0 ≤ (rowScatterDims N E K wf).start (ix2 e f) idx 1 + ((rowScatterDims N E K wf).window (ix2 e f) 1 : Int)
          ∧ (rowScatterDims N E K wf).start (ix2 e f) idx 1 + ((rowScatterDims N E K wf).window (ix2 e f) 1 : Int) < (K : Int)
        rw [h1, g1]
        have := f.isLt
        omega

/-- A row scatter's update `(e, f)` is dropped exactly when its scatter index `idx[e, 0]`, read signed, is outside
    `[0, N)`. -/
theorem scatter_rows_resultIdx?_eq_none_iff {N E K w : ℕ}
    (wf : ScatterDims.WF ⟨2, ![N, K]⟩ ⟨2, ![E, 1]⟩ ⟨2, ![E, K]⟩ [1] [0] [0] 1)
    (idx : IVec ⟨2, ![E, 1]⟩ w) (e : Fin E) (f : Fin K) :
    (rowScatterDims N E K wf).resultIdx? (ix2 e f) idx = none
      ↔ ¬ (0 ≤ (idx (ix2 e (0 : Fin 1))).toInt ∧ (idx (ix2 e (0 : Fin 1))).toInt < (N : Int)) := by
  constructor
  · intro hnone hz
    have hp : (idx (ix2 e (0 : Fin 1))).toInt.toNat < N := by omega
    have := (scatter_rows_resultIdx?_eq_some_iff wf idx e f ⟨_, hp⟩ f).mpr ⟨by simp; omega, rfl⟩
    rw [hnone] at this
    exact absurd this (by simp)
  · intro hz
    cases hr : (rowScatterDims N E K wf).resultIdx? (ix2 e f) idx with
    | none => rfl
    | some g =>
      exfalso; apply hz
      rw [eq_ix2 g] at hr
      have := ((scatter_rows_resultIdx?_eq_some_iff wf idx e f (g 0) (g 1)).mp hr).1
      have hlt : (g 0).val < N := (g 0).isLt
      omega

end RowScatter

/-! ## An entry scatter of updates `[E]` into a flat array `[N]` at scatter indices `[E, 1]`: where an update lands -/

section EntryScatter

/-- The dimension numbers of an entry scatter: operand `[N]`, scatter indices `[E, 1]`, updates `[E]`; no window axis,
    the operand's one axis inserted and named by the scatter index, the index vector along the scatter indices' axis 1
    (of size 1). Their conditions `wf` are decided on a program's literal shapes. -/
abbrev entryScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update `e` starts at the scatter index `idx[e, 0]`, read as a signed integer. -/
theorem entryScatter_start_zero {N E w : ℕ}
    (wf : ScatterDims.WF ⟨1, ![N]⟩ ⟨2, ![E, 1]⟩ ⟨1, ![E]⟩ [] [0] [0] 1)
    (idx : IVec ⟨2, ![E, 1]⟩ w) (e : Fin E) :
    (entryScatterDims N E wf).start (ix1 e) idx 0 = (idx (ix2 e (0 : Fin 1))).toInt := by
  unfold ScatterDims.start
  rw [dif_pos (show (0 : Fin 1) ∈ (entryScatterDims N E wf).scatterDimsToOperandDims from List.mem_singleton.mpr rfl)]
  have hsi : (entryScatterDims N E wf).siIdx (ix1 e) ⟨List.idxOf (0 : Fin 1) (entryScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted window axis: the window coordinate is `0`. -/
theorem entryScatter_window_zero {N E : ℕ}
    (wf : ScatterDims.WF ⟨1, ![N]⟩ ⟨2, ![E, 1]⟩ ⟨1, ![E]⟩ [] [0] [0] 1) (e : Fin E) :
    (entryScatterDims N E wf).window (ix1 e) 0 = 0 := by
  unfold ScatterDims.window
  rw [dif_neg (show (0 : Fin 1) ∉ (⟨1, ![N]⟩ : Shape).kept ([0] : List (Fin 1)) by
    simp [Shape.kept, List.mem_filter, List.mem_finRange])]

/-- WHERE AN ENTRY SCATTER'S UPDATE LANDS: update `e` lands at `p` exactly when the scatter index `idx[e, 0]`, read as
    a SIGNED integer and not clamped, is `p`. (So an update whose index is outside `[0, N)` lands nowhere: it is
    dropped.) -/
theorem scatter_entries_resultIdx?_eq_some_iff {N E w : ℕ}
    (wf : ScatterDims.WF ⟨1, ![N]⟩ ⟨2, ![E, 1]⟩ ⟨1, ![E]⟩ [] [0] [0] 1)
    (idx : IVec ⟨2, ![E, 1]⟩ w) (e : Fin E) (p : Fin N) :
    (entryScatterDims N E wf).resultIdx? (ix1 e) idx = some (ix1 p)
      ↔ (idx (ix2 e (0 : Fin 1))).toInt = (p.val : Int) := by
  have h0 := entryScatter_start_zero wf idx e
  have g0 := entryScatter_window_zero wf e
  unfold ScatterDims.resultIdx?
  split
  · rename_i h
    rw [Option.some.injEq]
    constructor
    · intro hg
      have c0 := congrArg (fun g => (g 0).val) hg
      have b0 := h 0
      simp only [h0, g0] at c0 b0
      have : ((idx (ix2 e (0 : Fin 1))).toInt + ((0 : ℕ) : Int)).toNat = p.val := c0
      omega
    · intro hz
      funext a
      obtain rfl : a = 0 := Subsingleton.elim _ _
      refine Fin.ext ?_
      show ((entryScatterDims N E wf).start (ix1 e) idx 0 + ((entryScatterDims N E wf).window (ix1 e) 0 : Int)).toNat = p.val
      rw [h0, g0, hz]; simp
  · rename_i h
    constructor
    · intro hc; exact absurd hc (by simp)
    · intro hz
      exfalso; apply h
      intro a
      obtain rfl : a = 0 := Subsingleton.elim _ _
      show 0 ≤ (entryScatterDims N E wf).start (ix1 e) idx 0 + ((entryScatterDims N E wf).window (ix1 e) 0 : Int)
        ∧ (entryScatterDims N E wf).start (ix1 e) idx 0 + ((entryScatterDims N E wf).window (ix1 e) 0 : Int) < (N : Int)
      rw [h0, g0, hz]
      have := p.isLt
      omega

/-- An entry scatter's update `e` is dropped exactly when its scatter index `idx[e, 0]`, read signed, is outside
    `[0, N)`. -/
theorem scatter_entries_resultIdx?_eq_none_iff {N E w : ℕ}
    (wf : ScatterDims.WF ⟨1, ![N]⟩ ⟨2, ![E, 1]⟩ ⟨1, ![E]⟩ [] [0] [0] 1)
    (idx : IVec ⟨2, ![E, 1]⟩ w) (e : Fin E) :
    (entryScatterDims N E wf).resultIdx? (ix1 e) idx = none
      ↔ ¬ (0 ≤ (idx (ix2 e (0 : Fin 1))).toInt ∧ (idx (ix2 e (0 : Fin 1))).toInt < (N : Int)) := by
  constructor
  · intro hnone hz
    have hp : (idx (ix2 e (0 : Fin 1))).toInt.toNat < N := by omega
    have := (scatter_entries_resultIdx?_eq_some_iff wf idx e ⟨_, hp⟩).mpr (by simp; omega)
    rw [hnone] at this
    exact absurd this (by simp)
  · intro hz
    cases hr : (entryScatterDims N E wf).resultIdx? (ix1 e) idx with
    | none => rfl
    | some g =>
      exfalso; apply hz
      rw [eq_ix1 g] at hr
      have := (scatter_entries_resultIdx?_eq_some_iff wf idx e (g 0)).mp hr
      have hlt : (g 0).val < N := (g 0).isLt
      omega

end EntryScatter

end Idealize.ShloMosaic.ValueIdx

end
-- ==== Proof.LibGraphAggregate.lean ====
/-
  A degree-normalised neighbourhood sum, with the destination's factor taken out of the sum.

  Over the extended reals a finite sum may be scaled term by term by a factor that is nonnegative and finite:
  `(∑ j, a j) * r = ∑ j, a j * r` (`sum_mul_of_nonneg_of_ne_top`); for other factors the law fails at the infinities.

  An edge `e` carries a row `H (src e)` to the row `dst e`. Weighting the edge by `d (src e) * d (dst e)` and adding the
  weighted rows into their destinations gives, at destination row `p`, the rows `H (src e) * d (src e)` added into their
  destinations, times `d p`: every edge that lands on row `p` has `dst e = p`, so the second factor is the same for all
  of them and leaves the sum (`scatterAdd_weighted_rows`). The gathers clamp their start index into the array, the
  scatter drops an edge whose destination is outside it; the one fact needed of the two index columns is that an edge
  landing on row `p` reads the factor of row `p` (`hC`).
-/
import Idealize.ShloMosaic.PureOps.Ideal
import Idealize.ShloMosaic.Lib.ValueIdx
import proofs.«141591_j20212116095606_2_alg».proof.Proof.LibRowGatherScatter

noncomputable section

namespace Idealize.ShloMosaic.ValueIdx

open Idealize.ShloMosaic

/-- A finite sum of extended reals scaled by a nonnegative finite factor is the sum of the scaled terms. -/
theorem sum_mul_of_nonneg_of_ne_top {ι : Type} (s : Finset ι) (a : ι → EReal) {r : EReal} (h0 : 0 ≤ r) (ht : r ≠ ⊤) :
    (∑ j ∈ s, a j) * r = ∑ j ∈ s, a j * r := by
  classical
  induction s using Finset.induction_on with
  | empty => simp
  | insert j s hj ih =>
    rw [Finset.sum_insert hj, Finset.sum_insert hj, EReal.right_distrib_of_nonneg_of_ne_top h0 ht, ih]

/-- Rows gathered along the edges, each weighted by the factors of its two end rows, and added into the destination
    rows: at row `p` this is the rows weighted by their source factor only, added likewise, times the factor of `p`. -/
theorem scatterAdd_weighted_rows {N E K w : ℕ} (hN : 0 < N)
    (wfg : GatherDims.WF ⟨2, ![N, K]⟩ ⟨2, ![E, 1]⟩ ⟨2, ![E, K]⟩ [1] [0] [] [0] [] 1 ![1, K])
    (wfe : GatherDims.WF ⟨1, ![N]⟩ ⟨2, ![E, 1]⟩ ⟨1, ![E]⟩ [] [0] [] [0] [] 1 ![1])
    (wfs : ScatterDims.WF ⟨2, ![N, K]⟩ ⟨2, ![E, 1]⟩ ⟨2, ![E, K]⟩ [1] [0] [0] 1)
    (H : (⟨2, ![N, K]⟩ : Shape).Idx → EReal) (d : (⟨1, ![N]⟩ : Shape).Idx → EReal)
    (hd : ∀ n, 0 ≤ d n ∧ d n ≠ ⊤)
    (RN CN CB : IVec ⟨2, ![E, 1]⟩ w)
    (hC : ∀ (e : Fin E) (p : Fin N), (CB (ix2 e (0 : Fin 1))).toInt = (p.val : Int) →
      min (CN (ix2 e (0 : Fin 1))).toInt.toNat (N - 1) = p.val)
    (Z : (⟨2, ![N, K]⟩ : Shape).Idx → EReal) (hZ : ∀ i, Z i = 0)
    (U U' : (⟨2, ![E, K]⟩ : Shape).Idx → EReal)
    (hU : ∀ (e : Fin E) (f : Fin K), U (ix2 e f)
      = Host.gather (rowGatherDims N E K wfg) H RN (ix2 e f)
        * (Host.gather (entryGatherDims N E wfe) d RN (ix1 e) * Host.gather (entryGatherDims N E wfe) d CN (ix1 e)))
    (hU' : ∀ (e : Fin E) (f : Fin K), U' (ix2 e f)
      = Host.gather (rowGatherDims N E K wfg) (fun n => H n * d (ix1 (⟨(n 0).val, idx2_lt0 n⟩ : Fin N))) RN (ix2 e f))
    (p : Fin N) (q : Fin K) :
    Ideal.hostScatterAdd (rowScatterDims N E K wfs) Z CB U (ix2 p q)
      = Ideal.hostScatterAdd (rowScatterDims N E K wfs) Z CB U' (ix2 p q) * d (ix1 p) := by
  unfold Ideal.hostScatterAdd
  rw [hZ, zero_add, zero_add, sum_mul_of_nonneg_of_ne_top _ _ (hd (ix1 p)).1 (hd (ix1 p)).2]
  refine Finset.sum_congr rfl fun j hj => ?_
  obtain ⟨e, f, rfl⟩ : ∃ (e : Fin E) (f : Fin K), j = ix2 e f := ⟨⟨(j 0).val, idx2_lt0 j⟩, ⟨(j 1).val, idx2_lt1 j⟩, eq_ix2 j⟩
  have hland := (scatter_rows_resultIdx?_eq_some_iff wfs CB e f p q).mp (Finset.mem_filter.mp hj).2
  rw [hU e f, hU' e f, gather_rows_apply hN wfg H RN e f, gather_rows_apply hN wfg _ RN e f,
    gather_entries_apply hN wfe d RN e, gather_entries_apply hN wfe d CN e]
  have hp : (⟨min (CN (ix2 e (0 : Fin 1))).toInt.toNat (N - 1), by omega⟩ : Fin N) = p := Fin.ext (hC e p hland.1)
  rw [hp, mul_assoc]
  rfl

end Idealize.ShloMosaic.ValueIdx

end
-- ==== Proof.GraphLaw.lean ====
/-
  One layer of the graph convolution, on both arrangements.

  The reference weights every edge `e` by `d (s e) · d (t e)` — the factors of its source and target — and adds the
  weighted rows `T (s e)` into the targets' rows. The kernel adds the rows `T (s e) · d (s e)`, already scaled by the
  source's factor, and scales row `p` of the sum by `d p` afterwards. Every edge that lands on row `p` has target `p`,
  so the target's factor is the same for all of them and leaves the sum; a finite sum of extended reals may be scaled
  term by term by a factor that is nonnegative and finite, and the factor `d p` is: it is `0`, or the inverse square
  root of a positive number (a real, or `0` at `+∞`).

  `layer_agg`: the reference's weighted scatter-add at `(p, q)` is the kernel's neighbourhood sum `aggK` of the scaled
  table at `(p, q)`, times `d p`.
-/
import proofs.«141591_j20212116095606_2_alg».proof.Proof.LawFactor
import proofs.«141591_j20212116095606_2_alg».proof.Proof.KSpec
import proofs.«141591_j20212116095606_2_alg».proof.Proof.LibGraphAggregate

noncomputable section

namespace Cert.Gcn.Law

open Idealize.ShloMosaic Idealize.ShloMosaic.ValueIdx
open Cert.ReferenceIdeal Cert.ReferenceIdeal.Gen Cert.ReferenceIdeal.Read

/-! ## One layer's aggregation -/

/-- The kernel's neighbourhood sum, written with the reference's own stages of the edge array: the zero table, the
    raw target column and the wrapped source column are the same terms in both programs. -/
theorem aggK_eq (x1 : IVec S2x800000 32) (H : FVec Ideal S50000x256 .f32) :
    aggK (val_main_v3 (F := Ideal) x1) (val_main_v6 (F := Ideal) x1) H
      = Host.scatterAdd scatter_S50000x256_S850000x1_S850000x256_1_0_0_1 (val_main_v41 (F := Ideal)) (val_main_v42 (F := Ideal) x1)
          (Host.gather gather_S50000x256_S850000x1_S850000x256_1_0_n_n_0_1_1256 H (val_main_v20 (F := Ideal) x1)) := rfl

/-- The reference's update at edge `e`, column `f`: the gathered row entry times the two gathered factors. -/
theorem update_apply (x1 : IVec S2x800000 32) (T : FVec Ideal S50000x256 .f32) (e : Fin 850000) (f : Fin 256) :
    mulf (Host.gather gather_S50000x256_S850000x1_S850000x256_1_0_n_n_0_1_1256 T (val_main_v20 (F := Ideal) x1)) (val_main_v39 (F := Ideal) x1) (ix2 e f)
      = Host.gather gather_S50000x256_S850000x1_S850000x256_1_0_n_n_0_1_1256 T (val_main_v20 (F := Ideal) x1) (ix2 e f)
        * (Host.gather gather_S50000_S850000x1_S850000_n_0_n_n_0_1_1 (val_main_v14 (F := Ideal) x1) (val_main_v20 (F := Ideal) x1) (ix1 e)
          * Host.gather gather_S50000_S850000x1_S850000_n_0_n_n_0_1_1 (val_main_v14 (F := Ideal) x1) (val_main_v27 (F := Ideal) x1) (ix1 e)) := by
  rw [mulf_apply, val_main_v39_apply, val_main_v38_apply, val_main_v29_apply]
  have hi : idx_main_v38 (idx_main_v39 (ix2 e f)) = ix1 e := funext fun a => by match a with | ⟨0, _⟩ => rfl
  rw [hi]
  rfl

/-! ## The programs' dimension records are the general ones -/

/-- The reference's row scatter-add is the extended reals' sum over the edges landing at the entry, with the general
    row-scatter dimensions. -/
theorem scatter_eq (Z : FVec Ideal S50000x256 .f32) (CB : IVec S850000x1 32) (U : FVec Ideal S850000x256 .f32) (i : S50000x256.Idx) :
    Host.scatterAdd scatter_S50000x256_S850000x1_S850000x256_1_0_0_1 Z CB U i
      = Ideal.hostScatterAdd (rowScatterDims 50000 850000 256 scatter_S50000x256_S850000x1_S850000x256_1_0_0_1.wf) Z CB U i := rfl

/-- The reference's row gather has the general row-gather dimensions. -/
theorem gatherRows_eq (H : FVec Ideal S50000x256 .f32) (RN : IVec S850000x1 32) (i : S850000x256.Idx) :
    Host.gather gather_S50000x256_S850000x1_S850000x256_1_0_n_n_0_1_1256 H RN i = Host.gather (rowGatherDims 50000 850000 256 gather_S50000x256_S850000x1_S850000x256_1_0_n_n_0_1_1256.wf) H RN i := rfl

/-- The reference's entry gather has the general entry-gather dimensions. -/
theorem gatherEntries_eq (d : FVec Ideal S50000 .f32) (RN : IVec S850000x1 32) (i : S850000.Idx) :
    Host.gather gather_S50000_S850000x1_S850000_n_0_n_n_0_1_1 d RN i = Host.gather (entryGatherDims 50000 850000 gather_S50000_S850000x1_S850000_n_0_n_n_0_1_1.wf) d RN i := rfl

/-- THE LAYER LAW. `T` a node table, `Hs` the same table with row `p` scaled by the factor `d p`: the reference's
    scatter-add of the rows `T (s e) · (d (s e) · d (t e))` is, at `(p, q)`, the kernel's neighbourhood sum of `Hs`
    at `(p, q)`, times `d p`. (The zero table, the target column, the wrapped source column and the edge weights enter
    as variables equal to the first layer's stages, so that the later layers' stages — other names for the same terms —
    are met by `rfl`.) -/
theorem layer_agg (x1 : IVec S2x800000 32) (T Hs : FVec Ideal S50000x256 .f32)
    (hHs : ∀ (p : Fin 50000) (q : Fin 256), Hs (ix2 p q) = T (ix2 p q) * val_main_v14 (F := Ideal) x1 (ix1 p))
    (Z : FVec Ideal S50000x256 .f32) (hZ : Z = val_main_v41 (F := Ideal))
    (CB : IVec S850000x1 32) (hCB : CB = val_main_v42 (F := Ideal) x1)
    (RN : IVec S850000x1 32) (hRN : RN = val_main_v20 (F := Ideal) x1)
    (NB : FVec Ideal S850000x256 .f32) (hNB : NB = val_main_v39 (F := Ideal) x1)
    (p : Fin 50000) (q : Fin 256) :
    Host.scatterAdd scatter_S50000x256_S850000x1_S850000x256_1_0_0_1 Z CB (mulf (Host.gather gather_S50000x256_S850000x1_S850000x256_1_0_n_n_0_1_1256 T RN) NB) (ix2 p q)
      = aggK (val_main_v3 (F := Ideal) x1) (val_main_v6 (F := Ideal) x1) Hs (ix2 p q) * val_main_v14 (F := Ideal) x1 (ix1 p) := by
  subst hZ hCB hRN hNB
  have hHs' : Hs = fun n => T n * val_main_v14 (F := Ideal) x1 (ix1 (⟨(n 0).val, idx2_lt0 n⟩ : Fin 50000)) := by
    funext n
    obtain ⟨a, b, rfl⟩ : ∃ (a : Fin 50000) (b : Fin 256), n = ix2 a b := ⟨n 0, n 1, eq_ix2 n⟩
    exact hHs a b
  rw [aggK_eq, hHs', scatter_eq, scatter_eq]
  exact scatterAdd_weighted_rows (N := 50000) (E := 850000) (K := 256) (w := 32) (by decide)
    gather_S50000x256_S850000x1_S850000x256_1_0_n_n_0_1_1256.wf gather_S50000_S850000x1_S850000_n_0_n_n_0_1_1.wf scatter_S50000x256_S850000x1_S850000x256_1_0_0_1.wf
    T (val_main_v14 (F := Ideal) x1) (fun n => factor_bounds x1 n)
    (val_main_v20 (F := Ideal) x1) (val_main_v27 (F := Ideal) x1) (val_main_v42 (F := Ideal) x1)
    (fun e p hp => target_reads x1 e p hp)
    (val_main_v41 (F := Ideal)) zeros_apply
    (mulf (Host.gather gather_S50000x256_S850000x1_S850000x256_1_0_n_n_0_1_1256 T (val_main_v20 (F := Ideal) x1)) (val_main_v39 (F := Ideal) x1))
    (Host.gather gather_S50000x256_S850000x1_S850000x256_1_0_n_n_0_1_1256 (fun n => T n * val_main_v14 (F := Ideal) x1 (ix1 (⟨(n 0).val, idx2_lt0 n⟩ : Fin 50000))) (val_main_v20 (F := Ideal) x1))
    (fun e f => by
      rw [update_apply, gatherRows_eq, gatherEntries_eq, gatherEntries_eq])
    (fun e f => gatherRows_eq _ _ _) p q

end Cert.Gcn.Law

end
-- ==== Proof.LawDots.lean ====
/-
  The reference's three products after the first, read at an entry: the sum over `k` of `max (aggregate + bias, 0)`
  times the weight — the aggregate, the bias broadcast over the rows and the cut at zero opened through the reference's
  stages.
-/
import proofs.«141591_j20212116095606_2_alg».proof.Proof.RefRead
import proofs.«141591_j20212116095606_2_alg».proof.Proof.KStages
import Idealize.ShloMosaic.Lib.ValueIdx
import Idealize.ShloMosaic.PureOps.Ideal.Laws

noncomputable section

namespace Cert.Gcn.Law

open Idealize.ShloMosaic Idealize.ShloMosaic.ValueIdx
open Cert.ReferenceIdeal Cert.ReferenceIdeal.Gen Cert.ReferenceIdeal.Read

/-! ## The reference's products at an entry -/

/-- The reference's layer 1 product at `(p, q)`: the sum over `k` of `max (aggregate p k + bias k, 0)` times the weight. -/
theorem dot1_apply (x0 : FVec Ideal S50000x512 .f32) (x1 : IVec S2x800000 32) (x2 : FVec Ideal S512x256 .f32) (x3 : FVec Ideal S256 .f32) (x4 : FVec Ideal S256x256 .f32) (p : Fin 50000) (q : Fin 256) :
    val_main_v48 (F := Ideal) x0 x1 x2 x3 x4 (ix2 p q)
      = ∑ k : Fin 256, max (val_main_v43 (F := Ideal) x0 x1 x2 (ix2 p k) + x3 (ix1 k)) zeroF * x4 (ix2 k q) := by
  rw [val_main_v48_apply]
  refine Finset.sum_congr rfl fun k _ => ?_
  have hl : lidx_main_v48 (ix2 p q) k = ix2 p k := funext fun a => by match a with | ⟨0, _⟩ => rfl | ⟨1, _⟩ => rfl
  have hr : ridx_main_v48 (ix2 p q) k = ix2 k q := funext fun a => by match a with | ⟨0, _⟩ => rfl | ⟨1, _⟩ => rfl
  rw [hl, hr, val_main_v47_apply, val_main_v46_apply, val_main_v45_apply, val_main_v44_apply,
    val_main_call1_v0_apply, val_main_call1_cst_apply]
  have hb : idx_main_v44 (idx_main_v45 (ix2 p k)) = ix1 k := funext fun a => by match a with | ⟨0, _⟩ => rfl
  rw [hb]
  rfl

/-- The reference's layer 2 product at `(p, q)`: the sum over `k` of `max (aggregate p k + bias k, 0)` times the weight. -/
theorem dot2_apply (x0 : FVec Ideal S50000x512 .f32) (x1 : IVec S2x800000 32) (x2 : FVec Ideal S512x256 .f32) (x3 : FVec Ideal S256 .f32) (x4 : FVec Ideal S256x256 .f32) (x5 : FVec Ideal S256 .f32) (x6 : FVec Ideal S256x256 .f32) (p : Fin 50000) (q : Fin 256) :
    val_main_v66 (F := Ideal) x0 x1 x2 x3 x4 x5 x6 (ix2 p q)
      = ∑ k : Fin 256, max (val_main_v61 (F := Ideal) x0 x1 x2 x3 x4 (ix2 p k) + x5 (ix1 k)) zeroF * x6 (ix2 k q) := by
  rw [val_main_v66_apply]
  refine Finset.sum_congr rfl fun k _ => ?_
  have hl : lidx_main_v66 (ix2 p q) k = ix2 p k := funext fun a => by match a with | ⟨0, _⟩ => rfl | ⟨1, _⟩ => rfl
  have hr : ridx_main_v66 (ix2 p q) k = ix2 k q := funext fun a => by match a with | ⟨0, _⟩ => rfl | ⟨1, _⟩ => rfl
  rw [hl, hr, val_main_v65_apply, val_main_v64_apply, val_main_v63_apply, val_main_v62_apply,
    val_main_call2_v0_apply, val_main_call2_cst_apply]
  have hb : idx_main_v62 (idx_main_v63 (ix2 p k)) = ix1 k := funext fun a => by match a with | ⟨0, _⟩ => rfl
  rw [hb]
  rfl

/-- The reference's layer 3 product at `(p, q)`: the sum over `k` of `max (aggregate p k + bias k, 0)` times the weight. -/
theorem dot3_apply (x0 : FVec Ideal S50000x512 .f32) (x1 : IVec S2x800000 32) (x2 : FVec Ideal S512x256 .f32) (x3 : FVec Ideal S256 .f32) (x4 : FVec Ideal S256x256 .f32) (x5 : FVec Ideal S256 .f32) (x6 : FVec Ideal S256x256 .f32) (x7 : FVec Ideal S256 .f32) (x8 : FVec Ideal S256x1 .f32) (p : Fin 50000) (q : Fin 1) :
    val_main_v84 (F := Ideal) x0 x1 x2 x3 x4 x5 x6 x7 x8 (ix2 p q)
      = ∑ k : Fin 256, max (val_main_v79 (F := Ideal) x0 x1 x2 x3 x4 x5 x6 (ix2 p k) + x7 (ix1 k)) zeroF * x8 (ix2 k q) := by
  rw [val_main_v84_apply]
  refine Finset.sum_congr rfl fun k _ => ?_
  have hl : lidx_main_v84 (ix2 p q) k = ix2 p k := funext fun a => by match a with | ⟨0, _⟩ => rfl | ⟨1, _⟩ => rfl
  have hr : ridx_main_v84 (ix2 p q) k = ix2 k q := funext fun a => by match a with | ⟨0, _⟩ => rfl | ⟨1, _⟩ => rfl
  rw [hl, hr, val_main_v83_apply, val_main_v82_apply, val_main_v81_apply, val_main_v80_apply,
    val_main_call3_v0_apply, val_main_call3_cst_apply]
  have hb : idx_main_v80 (idx_main_v81 (ix2 p k)) = ix1 k := funext fun a => by match a with | ⟨0, _⟩ => rfl
  rw [hb]
  rfl

end Cert.Gcn.Law

end
-- ==== Proof.Bridge.lean ====
/-
  The reference's result is the kernel's function of the ten arguments.

  Layer by layer the two arrangements keep one relation: the kernel's node table is the reference's with row `p` scaled
  by the factor `d p`, and the reference's aggregate is the kernel's with row `p` scaled by `d p` (GraphLaw's layer
  law). Inside a layer the kernel scales its aggregate by `d p` before adding the bias, which gives the reference's
  aggregate; the product with the weight is then the same sum on both sides, and the kernel scales it by `d p` again.
  At the readout nothing is scaled afterwards, and the two results are equal.
-/
import proofs.«141591_j20212116095606_2_alg».proof.Proof.GraphLaw
import proofs.«141591_j20212116095606_2_alg».proof.Proof.LawDots
import proofs.«141591_j20212116095606_2_alg».proof.Proof.LibColumnBroadcast

noncomputable section

namespace Cert.Gcn.Law

open Idealize.ShloMosaic Idealize.ShloMosaic.ValueIdx
open Cert.ReferenceIdeal Cert.ReferenceIdeal.Gen Cert.ReferenceIdeal.Read

/-- The factor column at row `p` is the factor of node `p`. -/
theorem factorCol_apply (x1 : IVec S2x800000 32) (p : Fin 50000) :
    factorCol x1 (ix2 p (0 : Fin 1)) = val_main_v14 (F := Ideal) x1 (ix1 p) := by
  unfold factorCol
  exact broadcastInDim_a_a1_apply _ _ p 0

/-- A column `[50000, 1]` viewed as a vector reads, at `p`, the column's row `p`. -/
theorem dropCol_apply {α : Type} (y : S50000x1.Idx → α) (h : S50000x1.ShapeCasts S50000) (p : Fin 50000) :
    shapeCast S50000 y h (ix1 p) = y (ix2 p (0 : Fin 1)) :=
  shapeCast_apply y h _ _ (by
    rw [Shape.rowMajor_val_two, Shape.rowMajor_val_one]
    show p.val * 1 + 0 = p.val
    omega)

/-- Inside a layer: with the kernel's aggregate `AK` and the reference's `AR` related by `AR p k = AK p k · d p`, the
    kernel's stage at `(p, q)` is the reference's product `∑ k, max (AR p k + b k, 0) · W k q`, times `d p`. -/
theorem scaled_layer (dv : S50000.Idx → EReal) (AR AK : FVec Ideal S50000x256 .f32)
    (hA : ∀ (p : Fin 50000) (k : Fin 256), AR (ix2 p k) = AK (ix2 p k) * dv (ix1 p))
    (dc : FVec Ideal S50000x1 .f32) (hdc : ∀ p : Fin 50000, dc (ix2 p (0 : Fin 1)) = dv (ix1 p))
    (b : FVec Ideal S256 .f32) (W : FVec Ideal S256x256 .f32) (p : Fin 50000) (q : Fin 256) :
    stageL AK dc b W (ix2 p q) = (∑ k : Fin 256, max (AR (ix2 p k) + b (ix1 k)) zeroF * W (ix2 k q)) * dv (ix1 p) := by
  show (∑ k : Fin 256, max (AK (ix2 p k) * dc (ix2 p (0 : Fin 1)) + b (ix1 k)) zeroF * W (ix2 k q)) * dc (ix2 p (0 : Fin 1)) = _
  rw [hdc]
  refine congrArg (· * dv (ix1 p)) (Finset.sum_congr rfl fun k _ => ?_)
  rw [hA]

section Chain

variable (x0 : FVec Ideal S50000x512 .f32) (x1 : IVec S2x800000 32) (x2 : FVec Ideal S512x256 .f32) (x3 : FVec Ideal S256 .f32) (x4 : FVec Ideal S256x256 .f32) (x5 : FVec Ideal S256 .f32) (x6 : FVec Ideal S256x256 .f32) (x7 : FVec Ideal S256 .f32) (x8 : FVec Ideal S256x1 .f32) (x9 : FVec Ideal S1 .f32)

/-- Layer 0: the kernel's scaled product is the reference's product, row `p` times `d p`. -/
theorem table0 (p : Fin 50000) (q : Fin 256) :
    (stage0 x0 x2 (factorCol x1)) (ix2 p q) = val_main_v30 (F := Ideal) x0 x2 (ix2 p q) * (val_main_v14 (F := Ideal) x1) (ix1 p) := by
  show (∑ k : Fin 512, x0 (ix2 p k) * x2 (ix2 k q)) * factorCol x1 (ix2 p (0 : Fin 1)) = _
  rw [factorCol_apply, val_main_v30_apply]
  refine congrArg (· * (val_main_v14 (F := Ideal) x1) (ix1 p)) (Finset.sum_congr rfl fun k _ => ?_)
  have hl : lidx_main_v30 (ix2 p q) k = ix2 p k := funext fun a => by match a with | ⟨0, _⟩ => rfl | ⟨1, _⟩ => rfl
  have hr : ridx_main_v30 (ix2 p q) k = ix2 k q := funext fun a => by match a with | ⟨0, _⟩ => rfl | ⟨1, _⟩ => rfl
  rw [hl, hr]

/-- Layer 0's aggregate. -/
theorem agg0 (p : Fin 50000) (q : Fin 256) :
    val_main_v43 (F := Ideal) x0 x1 x2 (ix2 p q) = (aggK (val_main_v3 (F := Ideal) x1) (val_main_v6 (F := Ideal) x1) (stage0 x0 x2 (factorCol x1))) (ix2 p q) * (val_main_v14 (F := Ideal) x1) (ix1 p) := by
  unfold val_main_v43 val_main_v40 val_main_v37
  exact layer_agg x1 (val_main_v30 (F := Ideal) x0 x2) (stage0 x0 x2 (factorCol x1)) (table0 x0 x1 x2) _ rfl _ rfl _ rfl _ rfl p q

/-- Layer 1's table. -/
theorem table1 (p : Fin 50000) (q : Fin 256) :
    (stageL (aggK (val_main_v3 (F := Ideal) x1) (val_main_v6 (F := Ideal) x1) (stage0 x0 x2 (factorCol x1))) (factorCol x1) x3 x4) (ix2 p q) = val_main_v48 (F := Ideal) x0 x1 x2 x3 x4 (ix2 p q) * (val_main_v14 (F := Ideal) x1) (ix1 p) := by
  rw [dot1_apply]
  exact scaled_layer (val_main_v14 (F := Ideal) x1) (val_main_v43 (F := Ideal) x0 x1 x2) (aggK (val_main_v3 (F := Ideal) x1) (val_main_v6 (F := Ideal) x1) (stage0 x0 x2 (factorCol x1))) (agg0 x0 x1 x2) (factorCol x1) (factorCol_apply x1) x3 x4 p q

/-- Layer 1's aggregate. -/
theorem agg1 (p : Fin 50000) (q : Fin 256) :
    val_main_v61 (F := Ideal) x0 x1 x2 x3 x4 (ix2 p q) = (aggK (val_main_v3 (F := Ideal) x1) (val_main_v6 (F := Ideal) x1) (stageL (aggK (val_main_v3 (F := Ideal) x1) (val_main_v6 (F := Ideal) x1) (stage0 x0 x2 (factorCol x1))) (factorCol x1) x3 x4)) (ix2 p q) * (val_main_v14 (F := Ideal) x1) (ix1 p) := by
  unfold val_main_v61 val_main_v58 val_main_v55
  exact layer_agg x1 (val_main_v48 (F := Ideal) x0 x1 x2 x3 x4) (stageL (aggK (val_main_v3 (F := Ideal) x1) (val_main_v6 (F := Ideal) x1) (stage0 x0 x2 (factorCol x1))) (factorCol x1) x3 x4) (table1 x0 x1 x2 x3 x4) _ rfl _ rfl _ rfl _ rfl p q

/-- Layer 2's table. -/
theorem table2 (p : Fin 50000) (q : Fin 256) :
    (stageL (aggK (val_main_v3 (F := Ideal) x1) (val_main_v6 (F := Ideal) x1) (stageL (aggK (val_main_v3 (F := Ideal) x1) (val_main_v6 (F := Ideal) x1) (stage0 x0 x2 (factorCol x1))) (factorCol x1) x3 x4)) (factorCol x1) x5 x6) (ix2 p q) = val_main_v66 (F := Ideal) x0 x1 x2 x3 x4 x5 x6 (ix2 p q) * (val_main_v14 (F := Ideal) x1) (ix1 p) := by
  rw [dot2_apply]
  exact scaled_layer (val_main_v14 (F := Ideal) x1) (val_main_v61 (F := Ideal) x0 x1 x2 x3 x4) (aggK (val_main_v3 (F := Ideal) x1) (val_main_v6 (F := Ideal) x1) (stageL (aggK (val_main_v3 (F := Ideal) x1) (val_main_v6 (F := Ideal) x1) (stage0 x0 x2 (factorCol x1))) (factorCol x1) x3 x4)) (agg1 x0 x1 x2 x3 x4) (factorCol x1) (factorCol_apply x1) x5 x6 p q

/-- Layer 2's aggregate. -/
theorem agg2 (p : Fin 50000) (q : Fin 256) :
    val_main_v79 (F := Ideal) x0 x1 x2 x3 x4 x5 x6 (ix2 p q) = (aggK (val_main_v3 (F := Ideal) x1) (val_main_v6 (F := Ideal) x1) (stageL (aggK (val_main_v3 (F := Ideal) x1) (val_main_v6 (F := Ideal) x1) (stageL (aggK (val_main_v3 (F := Ideal) x1) (val_main_v6 (F := Ideal) x1) (stage0 x0 x2 (factorCol x1))) (factorCol x1) x3 x4)) (factorCol x1) x5 x6)) (ix2 p q) * (val_main_v14 (F := Ideal) x1) (ix1 p) := by
  unfold val_main_v79 val_main_v76 val_main_v73
  exact layer_agg x1 (val_main_v66 (F := Ideal) x0 x1 x2 x3 x4 x5 x6) (stageL (aggK (val_main_v3 (F := Ideal) x1) (val_main_v6 (F := Ideal) x1) (stageL (aggK (val_main_v3 (F := Ideal) x1) (val_main_v6 (F := Ideal) x1) (stage0 x0 x2 (factorCol x1))) (factorCol x1) x3 x4)) (factorCol x1) x5 x6) (table2 x0 x1 x2 x3 x4 x5 x6) _ rfl _ rfl _ rfl _ rfl p q

/-- THE BRIDGE: the reference's result is `kernelResult` of the same ten arrays. -/
theorem ref_eq_kernel :
    val_main_v88 (F := Ideal) x0 x1 x2 x3 x4 x5 x6 x7 x8 x9 = kernelResult x0 x1 x2 x3 x4 x5 x6 x7 x8 x9 := by
  funext i
  obtain ⟨p, rfl⟩ : ∃ p : Fin 50000, i = ix1 p := ⟨i 0, eq_ix1 i⟩
  rw [val_main_v88_apply]
  have hi : idx_main_v88 (ix1 p) = ix2 p (0 : Fin 1) := funext fun a => Fin.ext (by
    match a with
    | ⟨0, _⟩ => exact Nat.div_one _
    | ⟨1, _⟩ => rfl)
  rw [hi, val_main_v87_apply, dot3_apply, val_main_v86_apply, val_main_v85_apply]
  have h9 : idx_main_v85 (idx_main_v86 (ix2 p (0 : Fin 1))) = ix1 (0 : Fin 1) := funext fun a => by match a with | ⟨0, _⟩ => rfl
  rw [h9]
  unfold kernelResult
  rw [dropCol_apply]
  show _ = (∑ k : Fin 256, max ((aggK (val_main_v3 (F := Ideal) x1) (val_main_v6 (F := Ideal) x1) (stageL (aggK (val_main_v3 (F := Ideal) x1) (val_main_v6 (F := Ideal) x1) (stageL (aggK (val_main_v3 (F := Ideal) x1) (val_main_v6 (F := Ideal) x1) (stage0 x0 x2 (factorCol x1))) (factorCol x1) x3 x4)) (factorCol x1) x5 x6)) (ix2 p k) * factorCol x1 (ix2 p (0 : Fin 1)) + x7 (ix1 k)) zeroF * x8 (ix2 k (0 : Fin 1)))
    + x9 (ix1 (0 : Fin 1))
  rw [factorCol_apply]
  refine congrArg (· + x9 (ix1 (0 : Fin 1))) (Finset.sum_congr rfl fun k _ => ?_)
  rw [agg2 x0 x1 x2 x3 x4 x5 x6 p k]

end Chain

end Cert.Gcn.Law

end
-- ==== Proof.lean ====
/-
  The certificate of a three-layer graph convolution with a scalar readout, kernel against reference.

  Both programs compute, from the edge array, the edges' source and target vectors (one self loop per node appended)
  and the node factor `d` (the inverse square root of the in-degree, `0` where the degree is not positive), by the same
  host operations. The reference weights every edge by `d (source) · d (target)` and adds the weighted rows of the
  layer's product into the targets' rows. The kernel's four regions keep the node tables scaled by the factor of their
  row: a region scales its input aggregate by `d p`, adds the bias, cuts the negative part, multiplies by the weight
  and scales by `d p` again; the host stretches between the regions add the unweighted rows into the targets' rows.
  On the extended reals the two agree because the target's factor, which is the same for all the edges landing on a
  row, is nonnegative and finite and so leaves the row's sum (GraphLaw, Bridge).

  The frames: the kernel programs' are the generated frame certificates; the reference's is its run with the result
  dropped. `preserves` has no conjunct. `algebraic`: the kernel's run with its result named (KRun), that result read
  through the boundaries between stretches and regions (KFold, Region0 … Region3) as `kernelResult` of the
  arguments, and the reference's run with its result read as the same function (Bridge).
-/
import proofs.«141591_j20212116095606_2_alg».proof.Defs
import proofs.«141591_j20212116095606_2_alg».proof.Proof.Gen.Kernel
import proofs.«141591_j20212116095606_2_alg».proof.Proof.Gen.Kernel.Skeleton
import proofs.«141591_j20212116095606_2_alg».proof.Proof.Gen.Kernel.Launch
import proofs.«141591_j20212116095606_2_alg».proof.Proof.Gen.Kernel.Points
import proofs.«141591_j20212116095606_2_alg».proof.Proof.Gen.Kernel.Frame
import proofs.«141591_j20212116095606_2_alg».proof.Proof.Gen.KernelIdeal
import proofs.«141591_j20212116095606_2_alg».proof.Proof.Gen.KernelIdeal.Skeleton
import proofs.«141591_j20212116095606_2_alg».proof.Proof.Gen.KernelIdeal.Launch
import proofs.«141591_j20212116095606_2_alg».proof.Proof.Gen.KernelIdeal.Points
import proofs.«141591_j20212116095606_2_alg».proof.Proof.Gen.KernelIdeal.Frame
import proofs.«141591_j20212116095606_2_alg».proof.Proof.Gen.ReferenceIdeal
import proofs.«141591_j20212116095606_2_alg».proof.Proof.Gen.Pre_finite_inputs
import proofs.«141591_j20212116095606_2_alg».proof.Proof.RefRun
import proofs.«141591_j20212116095606_2_alg».proof.Proof.RefRead
import proofs.«141591_j20212116095606_2_alg».proof.Proof.KRun
import proofs.«141591_j20212116095606_2_alg».proof.Proof.KFold
import proofs.«141591_j20212116095606_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `kernelResult` of the argument arrays: the kernel's by its boundaries read as
    values, the reference's by the bridge, its arguments rewritten to the kernel's by the agreement of the two memories. -/
theorem algebraic : Cert.algebraic_KernelIdeal_ReferenceIdeal := by
  intro m ρ m' ρ' _ hagree
  refine ⟨fun c => Cert.Gcn.kernelResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Gcn.KFold.result_eq m ρ c), (h c).2⟩) (Cert.Gcn.KRun.run_named m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9⟩ := hagree c
    rw [(h c).1, Cert.ReferenceIdeal.Read.val_main_v88_eq, a0, a1, a2, a3, a4, a5, a6, a7, a8, a9]
    exact Cert.Gcn.Law.ref_eq_kernel _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
